-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x384 : Shape := ⟨3, ![2048, 64, 384]⟩
abbrev S1152x384 : Shape := ⟨2, ![1152, 384]⟩
abbrev S384x384 : Shape := ⟨2, ![384, 384]⟩
abbrev S384 : Shape := ⟨1, ![384]⟩
abbrev S121x12 : Shape := ⟨2, ![121, 12]⟩
abbrev S64x64 : Shape := ⟨2, ![64, 64]⟩
abbrev S_ : Shape := ⟨0, ![]⟩

class Facts : Prop where
  bcast_S_S2048x64x384 : S_.BroadcastsInDim S2048x64x384 (![] : Fin 0 → Fin S2048x64x384.rank)
  reducesTo_S2048x64x384_S_d0_1_2 : S2048x64x384.ReducesTo [0, 1, 2] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S121x12 : S_.BroadcastsInDim S121x12 (![] : Fin 0 → Fin S121x12.rank)
  reducesTo_S121x12_S_d0_1 : S121x12.ReducesTo [0, 1] S_

variable [Facts]

def fn_part1 {F : FTy → Type} [FloatOps F] (main_arg4 : FVec F S121x12 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S121x12 .f32 := Host.absf main_arg4
  let main_cst_6 : FVec F S_ .f32 := constant S_ .f32 0x7F800000#32
  let main_v20 : FVec F S121x12 .f32 := broadcastInDim S121x12 ![] bcast_S_S121x12 main_cst_6
  let main_v21 : IVec S121x12 1 := cmpf .olt main_v19 main_v20
  let main_c_7 : IVec S_ 1 := constantI S_ 1 1#1
  let main_v22 : IVec S_ 1 := (fun x v => Host.reduce IntOp.andi x v reducesTo_S121x12_S_d0_1 h_S_) main_v21 main_c_7
  let main_v23 : IVec S_ 1 := andi main_v18 main_v22
  main_v23

def fn {F : FTy → Type} [FloatOps F] (main_arg0 : FVec F S2048x64x384 .f32) (main_arg1 : FVec F S1152x384 .f32) (main_arg2 : FVec F S384x384 .f32) (main_arg3 : FVec F S384 .f32) (main_arg4 : FVec F S121x12 .f32) (main_arg5 : IVec S64x64 32) : IVec S_ 1 :=
  let main_v0 : FVec F S2048x64x384 .f32 := Host.absf main_arg0
  let main_cst : FVec F S_ .f32 := constant S_ .f32 0x7F800000#32
  let main_v1 : FVec F S2048x64x384 .f32 := broadcastInDim S2048x64x384 ![] bcast_S_S2048x64x384 main_cst
  let main_v2 : IVec S2048x64x384 1 := cmpf .olt main_v0 main_v1
  let main_c : IVec S_ 1 := constantI S_ 1 1#1
  let main_v3 : IVec S_ 1 := (fun x v => Host.reduce IntOp.andi x v reducesTo_S2048x64x384_S_d0_1_2 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S384x384 .f32 := Host.absf main_arg2
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_c_3 : IVec S_ 1 := constantI S_ 1 1#1
  let main_v12 : IVec S_ 1 := (fun x v => Host.reduce IntOp.andi x v reducesTo_S384x384_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_v13 main_v16
-- ==== Kernel.lean ====
abbrev S2048x64x384 : Shape := ⟨3, ![2048, 64, 384]⟩
abbrev S1152x384 : Shape := ⟨2, ![1152, 384]⟩
abbrev S384x384 : Shape := ⟨2, ![384, 384]⟩
abbrev S384 : Shape := ⟨1, ![384]⟩
abbrev S121x12 : Shape := ⟨2, ![121, 12]⟩
abbrev S64x64 : Shape := ⟨2, ![64, 64]⟩
abbrev S4096 : Shape := ⟨1, ![4096]⟩
abbrev S_ : Shape := ⟨0, ![]⟩
abbrev S4096x1 : Shape := ⟨2, ![4096, 1]⟩
abbrev S4096x12 : Shape := ⟨2, ![4096, 12]⟩
abbrev S64x64x12 : Shape := ⟨3, ![64, 64, 12]⟩
abbrev S12x64x64 : Shape := ⟨3, ![12, 64, 64]⟩
abbrev S384x1152 : Shape := ⟨2, ![384, 1152]⟩
abbrev S8x64x384 : Shape := ⟨3, ![8, 64, 384]⟩
abbrev S512x384 : Shape := ⟨2, ![512, 384]⟩
abbrev S512x1152 : Shape := ⟨2, ![512, 1152]⟩
abbrev S8x64x12x32 : Shape := ⟨4, ![8, 64, 12, 32]⟩
abbrev S8x12x64x32 : Shape := ⟨4, ![8, 12, 64, 32]⟩
abbrev S96x64x32 : Shape := ⟨3, ![96, 64, 32]⟩
abbrev S96x64x64 : Shape := ⟨3, ![96, 64, 64]⟩
abbrev S8x12x64x64 : Shape := ⟨4, ![8, 12, 64, 64]⟩
abbrev S1x12x64x64 : Shape := ⟨4, ![1, 12, 64, 64]⟩
abbrev S8x12x64 : Shape := ⟨3, ![8, 12, 64]⟩
abbrev S8x12x64x1 : Shape := ⟨4, ![8, 12, 64, 1]⟩
abbrev S1x384 : Shape := ⟨2, ![1, 384]⟩

abbrev nBuf : Space → Nat
  | .hbm => 23
  | .vmem => 8
  | .smem => 0
  | _ => 0

abbrev bufTy : (tb : Table) → Fin (tcTables nBuf tb) → BufTy
  | .hbm, ⟨0, _⟩ => ⟨S2048x64x384, .f32⟩
  | .hbm, ⟨1, _⟩ => ⟨S1152x384, .f32⟩
  | .hbm, ⟨2, _⟩ => ⟨S384x384, .f32⟩
  | .hbm, ⟨3, _⟩ => ⟨S384, .f32⟩
  | .hbm, ⟨4, _⟩ => ⟨S121x12, .f32⟩
  | .hbm, ⟨5, _⟩ => ⟨S64x64, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x12, .f32⟩
  | .hbm, ⟨16, _⟩ => ⟨S64x64x12, .f32⟩
  | .hbm, ⟨17, _⟩ => ⟨S12x64x64, .f32⟩
  | .hbm, ⟨18, _⟩ => ⟨S384x1152, .f32⟩
  | .hbm, ⟨19, _⟩ => ⟨S384x1152, .bf16⟩
  | .hbm, ⟨20, _⟩ => ⟨S384x384, .f32⟩
  | .hbm, ⟨21, _⟩ => ⟨S384x384, .bf16⟩
  | .hbm, ⟨22, _⟩ => ⟨S2048x64x384, .f32⟩
  | .local _ .vmem, ⟨0, _⟩ => ⟨S8x64x384, .f32⟩
  | .local _ .vmem, ⟨1, _⟩ => ⟨S8x64x384, .f32⟩
  | .local _ .vmem, ⟨2, _⟩ => ⟨S384x1152, .bf16⟩
  | .local _ .vmem, ⟨3, _⟩ => ⟨S384x384, .bf16⟩
  | .local _ .vmem, ⟨4, _⟩ => ⟨S384, .f32⟩
  | .local _ .vmem, ⟨5, _⟩ => ⟨S12x64x64, .f32⟩
  | .local _ .vmem, ⟨6, _⟩ => ⟨S8x64x384, .f32⟩
  | .local _ .vmem, ⟨7, _⟩ => ⟨S8x64x384, .f32⟩
  | _, _ => ⟨S2048x64x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x12_S64x64x12 : S4096x12.ShapeCasts S64x64x12
  transposes_S64x64x12_S12x64x64_2_0_1 : S64x64x12.Transposes [2, 0, 1] S12x64x64
  transposes_S1152x384_S384x1152_1_0 : S1152x384.Transposes [1, 0] S384x1152
  bitsLt_bf16_f32 : FTy.bits .bf16 < FTy.bits .f32
  transposes_S384x384_S384x384_1_0 : S384x384.Transposes [1, 0] S384x384
  inb_S8x64x384_S8x64x384_0_0_0 : ∀ a, (![0, 0, 0] : Fin 3 → Nat) a + S8x64x384.size a ≤ S8x64x384.size a
  h_S8x64x384 : 0 < S8x64x384.numel
  shapeCasts_S8x64x384_S512x384 : S8x64x384.ShapeCasts S512x384
  inb_S384x1152_S384x1152_0_0 : ∀ a, (![0, 0] : Fin 2 → Nat) a + S384x1152.size a ≤ S384x1152.size a
  h_S384x1152 : 0 < S384x1152.numel
  shapeCasts_S384x1152_S384x1152 : S384x1152.ShapeCasts S384x1152
  slices_S512x1152_o0_0_S512x384 : S512x1152.Slices ![0, 0] S512x384
  slices_S512x1152_o0_384_S512x384 : S512x1152.Slices ![0, 384] S512x384
  slices_S512x1152_o0_768_S512x384 : S512x1152.Slices ![0, 768] S512x384
  shapeCasts_S512x384_S8x64x12x32 : S512x384.ShapeCasts S8x64x12x32
  transposes_S8x64x12x32_p0_2_1_3_S8x12x64x32 : S8x64x12x32.Transposes [0, 2, 1, 3] S8x12x64x32
  shapeCasts_S8x12x64x32_S96x64x32 : S8x12x64x32.ShapeCasts S96x64x32
  shapeCasts_S96x64x64_S8x12x64x64 : S96x64x64.ShapeCasts S8x12x64x64
  inb_S12x64x64_S12x64x64_0_0_0 : ∀ a, (![0, 0, 0] : Fin 3 → Nat) a + S12x64x64.size a ≤ S12x64x64.size a
  h_S12x64x64 : 0 < S12x64x64.numel
  shapeCasts_S12x64x64_S12x64x64 : S12x64x64.ShapeCasts S12x64x64
  shapeCasts_S12x64x64_S1x12x64x64 : S12x64x64.ShapeCasts S1x12x64x64
  shapeCasts_S1x12x64x64_S1x12x64x64 : S1x12x64x64.ShapeCasts S1x12x64x64
  broadcasts_S1x12x64x64_S8x12x64x64 : S1x12x64x64.Broadcasts S8x12x64x64
  reduces_S8x12x64x64_S8x12x64 : S8x12x64x64.Reduces [3] S8x12x64
  shapeCasts_S8x12x64_S8x12x64x1 : S8x12x64.ShapeCasts S8x12x64x1
  broadcasts_S8x12x64x1_S8x12x64x64 : S8x12x64x1.Broadcasts S8x12x64x64
  shapeCasts_S8x12x64x64_S96x64x64 : S8x12x64x64.ShapeCasts S96x64x64
  shapeCasts_S96x64x32_S8x12x64x32 : S96x64x32.ShapeCasts S8x12x64x32
  transposes_S8x12x64x32_p0_2_1_3_S8x64x12x32 : S8x12x64x32.Transposes [0, 2, 1, 3] S8x64x12x32
  shapeCasts_S8x64x12x32_S512x384 : S8x64x12x32.ShapeCasts S512x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S384_S384_0 : ∀ a, (![0] : Fin 1 → Nat) a + S384.size a ≤ S384.size a
  h_S384 : 0 < S384.numel
  shapeCasts_S384_S1x384 : S384.ShapeCasts S1x384
  broadcasts_S1x384_S512x384 : S1x384.Broadcasts S512x384
  shapeCasts_S512x384_S8x64x384 : S512x384.ShapeCasts S8x64x384
  gather_S121x12_S4096x1_S4096x12_1_0_n_n_0_1_112_wf : GatherDims.WF S121x12 S4096x1 S4096x12 [1] [0] [] [0] [] 1 ![1, 12]
  dot_S512x384_S384x1152_S512x1152_1_0_0_1_n_n_wf : DotDims.WF S512x384 S384x1152 S512x1152 [1] [0] [0] [1] [] []
  dot_S96x64x32_S96x64x32_S96x64x64_2_2_1_1_0_0_wf : DotDims.WF S96x64x32 S96x64x32 S96x64x64 [2] [2] [1] [1] [0] [0]
  dot_S96x64x64_S96x64x32_S96x64x32_2_1_1_2_0_0_wf : DotDims.WF S96x64x64 S96x64x32 S96x64x32 [2] [1] [1] [2] [0] [0]
  dot_S512x384_S384x384_S512x384_1_0_0_1_n_n_wf : DotDims.WF S512x384 S384x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x384.size a ≤ S2048x64x384.size a
  hwx0_0 : ∀ i : grid0.Coords, EltTy.bits .f32 = 32 ∨ (Rect.block (s := S2048x64x384) S8x64x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x1152.size a ≤ S384x1152.size a
  hwx0_1 : ∀ i : grid0.Coords, EltTy.bits .bf16 = 32 ∨ (Rect.block (s := S384x1152) S384x1152.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .bf16 = 32 ∨ (Rect.block (s := S384x384) S384x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384.size a ≤ S384.size a
  hwx0_3 : ∀ i : grid0.Coords, EltTy.bits .f32 = 32 ∨ (Rect.block (s := S384) S384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x64x64.size a ≤ S12x64x64.size a
  hwx0_4 : ∀ i : grid0.Coords, EltTy.bits .f32 = 32 ∨ (Rect.block (s := S12x64x64) S12x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64x384.size a ≤ S2048x64x384.size a
  hwx0_5 : ∀ i : grid0.Coords, EltTy.bits .f32 = 32 ∨ (Rect.block (s := S2048x64x384) S8x64x384.size (cc0_transform_5 i) (hinb0_5 i)).WholeWords (EltTy.packing .f32)

variable [Facts₀]

def gather_S121x12_S4096x1_S4096x12_1_0_n_n_0_1_112 : GatherDims S121x12 S4096x1 S4096x12 where
  offsetDims := [1]
  collapsedSliceDims := [0]
  operandBatchingDims := []
  startIndicesBatchingDims := []
  startIndexMap := [0]
  indexVectorDim := 1
  sliceSizes := ![1, 12]
  wf := gather_S121x12_S4096x1_S4096x12_1_0_n_n_0_1_112_wf
def dot_S512x384_S384x1152_S512x1152_1_0_0_1_n_n : DotDims S512x384 S384x1152 S512x1152 where
  lhsContracting := [1]
  rhsContracting := [0]
  lhsNonContracting := [0]
  rhsNonContracting := [1]
  lhsBatch := []
  rhsBatch := []
  wf := dot_S512x384_S384x1152_S512x1152_1_0_0_1_n_n_wf
def dot_S96x64x32_S96x64x32_S96x64x64_2_2_1_1_0_0 : DotDims S96x64x32 S96x64x32 S96x64x64 where
  lhsContracting := [2]
  rhsContracting := [2]
  lhsNonContracting := [1]
  rhsNonContracting := [1]
  lhsBatch := [0]
  rhsBatch := [0]
  wf := dot_S96x64x32_S96x64x32_S96x64x64_2_2_1_1_0_0_wf
def dot_S96x64x64_S96x64x32_S96x64x32_2_1_1_2_0_0 : DotDims S96x64x64 S96x64x32 S96x64x32 where
  lhsContracting := [2]
  rhsContracting := [1]
  lhsNonContracting := [1]
  rhsNonContracting := [2]
  lhsBatch := [0]
  rhsBatch := [0]
  wf := dot_S96x64x64_S96x64x32_S96x64x32_2_1_1_2_0_0_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf

abbrev win0_0 : Pipeline.Window sig grid0 :=
  Pipeline.Window.ofSpec (Memref.whole main_arg0) S8x64x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S384x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S12x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8x64x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64x384 : Shape := ⟨3, ![2048, 64, 384]⟩
abbrev S1152x384 : Shape := ⟨2, ![1152, 384]⟩
abbrev S384x384 : Shape := ⟨2, ![384, 384]⟩
abbrev S384 : Shape := ⟨1, ![384]⟩
abbrev S121x12 : Shape := ⟨2, ![121, 12]⟩
abbrev S64x64 : Shape := ⟨2, ![64, 64]⟩
abbrev S2048x64x1152 : Shape := ⟨3, ![2048, 64, 1152]⟩
abbrev S2048x64x3x12x32 : Shape := ⟨5, ![2048, 64, 3, 12, 32]⟩
abbrev S3x2048x12x64x32 : Shape := ⟨5, ![3, 2048, 12, 64, 32]⟩
abbrev S1x2048x12x64x32 : Shape := ⟨5, ![1, 2048, 12, 64, 32]⟩
abbrev S2048x12x64x32 : Shape := ⟨4, ![2048, 12, 64, 32]⟩
abbrev S_ : Shape := ⟨0, ![]⟩
abbrev S2048x12x64x64 : Shape := ⟨4, ![2048, 12, 64, 64]⟩
abbrev S4096 : Shape := ⟨1, ![4096]⟩
abbrev S4096x1 : Shape := ⟨2, ![4096, 1]⟩
abbrev S4096x12 : Shape := ⟨2, ![4096, 12]⟩
abbrev S64x64x12 : Shape := ⟨3, ![64, 64, 12]⟩
abbrev S12x64x64 : Shape := ⟨3, ![12, 64, 64]⟩
abbrev S1x12x64x64 : Shape := ⟨4, ![1, 12, 64, 64]⟩
abbrev S2048x12x64 : Shape := ⟨3, ![2048, 12, 64]⟩
abbrev S2048x12x64x1 : Shape := ⟨4, ![2048, 12, 64, 1]⟩
abbrev S2048x12x32x64 : Shape := ⟨4, ![2048, 12, 32, 64]⟩
abbrev S2048x64x12x32 : Shape := ⟨4, ![2048, 64, 12, 32]⟩
abbrev S1x1x384 : Shape := ⟨3, ![1, 1, 384]⟩

abbrev nBuf : Space → Nat
  | .hbm => 55
  | .vmem => 0
  | .smem => 0
  | _ => 0

abbrev bufTy : (tb : Table) → Fin (tcTables nBuf tb) → BufTy
  | .hbm, ⟨0, _⟩ => ⟨S2048x64x384, .f32⟩
  | .hbm, ⟨1, _⟩ => ⟨S1152x384, .f32⟩
  | .hbm, ⟨2, _⟩ => ⟨S384x384, .f32⟩
  | .hbm, ⟨3, _⟩ => ⟨S384, .f32⟩
  | .hbm, ⟨4, _⟩ => ⟨S121x12, .f32⟩
  | .hbm, ⟨5, _⟩ => ⟨S64x64, .i32⟩
  | .hbm, ⟨6, _⟩ => ⟨S2048x64x1152, .f32⟩
  | .hbm, ⟨7, _⟩ => ⟨S2048x64x3x12x32, .f32⟩
  | .hbm, ⟨8, _⟩ => ⟨S3x2048x12x64x32, .f32⟩
  | .hbm, ⟨9, _⟩ => ⟨S1x2048x12x64x32, .f32⟩
  | .hbm, ⟨10, _⟩ => ⟨S2048x12x64x32, .f32⟩
  | .hbm, ⟨11, _⟩ => ⟨S_, .f32⟩
  | .hbm, ⟨12, _⟩ => ⟨S2048x12x64x32, .f32⟩
  | .hbm, ⟨13, _⟩ => ⟨S2048x12x64x32, .f32⟩
  | .hbm, ⟨14, _⟩ => ⟨S1x2048x12x64x32, .f32⟩
  | .hbm, ⟨15, _⟩ => ⟨S2048x12x64x32, .f32⟩
  | .hbm, ⟨16, _⟩ => ⟨S1x2048x12x64x32, .f32⟩
  | .hbm, ⟨17, _⟩ => ⟨S2048x12x64x32, .f32⟩
  | .hbm, ⟨18, _⟩ => ⟨S2048x12x64x64, .f32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x12, .f32⟩
  | .hbm, ⟨29, _⟩ => ⟨S64x64x12, .f32⟩
  | .hbm, ⟨30, _⟩ => ⟨S12x64x64, .f32⟩
  | .hbm, ⟨31, _⟩ => ⟨S1x12x64x64, .f32⟩
  | .hbm, ⟨32, _⟩ => ⟨S2048x12x64x64, .f32⟩
  | .hbm, ⟨33, _⟩ => ⟨S2048x12x64x64, .f32⟩
  | .hbm, ⟨34, _⟩ => ⟨S_, .f32⟩
  | .hbm, ⟨35, _⟩ => ⟨S2048x12x64, .f32⟩
  | .hbm, ⟨36, _⟩ => ⟨S_, .f32⟩
  | .hbm, ⟨37, _⟩ => ⟨S2048x12x64, .f32⟩
  | .hbm, ⟨38, _⟩ => ⟨S2048x12x64, .f32⟩
  | .hbm, ⟨39, _⟩ => ⟨S2048x12x64x1, .f32⟩
  | .hbm, ⟨40, _⟩ => ⟨S2048x12x64x64, .f32⟩
  | .hbm, ⟨41, _⟩ => ⟨S2048x12x64x64, .f32⟩
  | .hbm, ⟨42, _⟩ => ⟨S2048x12x64x64, .f32⟩
  | .hbm, ⟨43, _⟩ => ⟨S_, .f32⟩
  | .hbm, ⟨44, _⟩ => ⟨S2048x12x64, .f32⟩
  | .hbm, ⟨45, _⟩ => ⟨S2048x12x64x1, .f32⟩
  | .hbm, ⟨46, _⟩ => ⟨S2048x12x64x64, .f32⟩
  | .hbm, ⟨47, _⟩ => ⟨S2048x12x64x64, .f32⟩
  | .hbm, ⟨48, _⟩ => ⟨S2048x12x32x64, .f32⟩
  | .hbm, ⟨49, _⟩ => ⟨S2048x64x12x32, .f32⟩
  | .hbm, ⟨50, _⟩ => ⟨S2048x64x384, .f32⟩
  | .hbm, ⟨51, _⟩ => ⟨S2048x64x384, .f32⟩
  | .hbm, ⟨52, _⟩ => ⟨S1x1x384, .f32⟩
  | .hbm, ⟨53, _⟩ => ⟨S2048x64x384, .f32⟩
  | .hbm, ⟨54, _⟩ => ⟨S2048x64x384, .f32⟩
  | _, _ => ⟨S2048x64x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  shapeCasts_S2048x64x1152_S2048x64x3x12x32 : S2048x64x1152.ShapeCasts S2048x64x3x12x32
  transposes_S2048x64x3x12x32_S3x2048x12x64x32_2_0_3_1_4 : S2048x64x3x12x32.Transposes [2, 0, 3, 1, 4] S3x2048x12x64x32
  slices_S3x2048x12x64x32_S1x2048x12x64x32_0_0_0_0_0 : S3x2048x12x64x32.Slices ![0, 0, 0, 0, 0] S1x2048x12x64x32
  shapeCasts_S1x2048x12x64x32_S2048x12x64x32 : S1x2048x12x64x32.ShapeCasts S2048x12x64x32
  bcast_S_S2048x12x64x32 : S_.BroadcastsInDim S2048x12x64x32 (![] : Fin 0 → Fin S2048x12x64x32.rank)
  slices_S3x2048x12x64x32_S1x2048x12x64x32_1_0_0_0_0 : S3x2048x12x64x32.Slices ![1, 0, 0, 0, 0] S1x2048x12x64x32
  slices_S3x2048x12x64x32_S1x2048x12x64x32_2_0_0_0_0 : S3x2048x12x64x32.Slices ![2, 0, 0, 0, 0] S1x2048x12x64x32
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x12_S64x64x12 : S4096x12.ShapeCasts S64x64x12
  transposes_S64x64x12_S12x64x64_2_0_1 : S64x64x12.Transposes [2, 0, 1] S12x64x64
  bcast_S12x64x64_S1x12x64x64_1_2_3 : S12x64x64.BroadcastsInDim S1x12x64x64 (![1, 2, 3] : Fin 3 → Fin S1x12x64x64.rank)
  bcast_S1x12x64x64_S2048x12x64x64_0_1_2_3 : S1x12x64x64.BroadcastsInDim S2048x12x64x64 (![0, 1, 2, 3] : Fin 4 → Fin S2048x12x64x64.rank)
  reducesTo_S2048x12x64x64_S2048x12x64_d3 : S2048x12x64x64.ReducesTo [3] S2048x12x64
  h_S_ : 0 < S_.numel
  bcast_S_S2048x12x64 : S_.BroadcastsInDim S2048x12x64 (![] : Fin 0 → Fin S2048x12x64.rank)
  bcast_S2048x12x64_S2048x12x64x1_0_1_2 : S2048x12x64.BroadcastsInDim S2048x12x64x1 (![0, 1, 2] : Fin 3 → Fin S2048x12x64x1.rank)
  bcast_S2048x12x64x1_S2048x12x64x64_0_1_2_3 : S2048x12x64x1.BroadcastsInDim S2048x12x64x64 (![0, 1, 2, 3] : Fin 4 → Fin S2048x12x64x64.rank)
  transposes_S2048x12x32x64_S2048x64x12x32_0_3_1_2 : S2048x12x32x64.Transposes [0, 3, 1, 2] S2048x64x12x32
  shapeCasts_S2048x64x12x32_S2048x64x384 : S2048x64x12x32.ShapeCasts S2048x64x384
  bcast_S384_S1x1x384_2 : S384.BroadcastsInDim S1x1x384 (![2] : Fin 1 → Fin S1x1x384.rank)
  bcast_S1x1x384_S2048x64x384_0_1_2 : S1x1x384.BroadcastsInDim S2048x64x384 (![0, 1, 2] : Fin 3 → Fin S2048x64x384.rank)
  dot_S2048x64x384_S1152x384_S2048x64x1152_2_1_01_0_n_n_wf : DotDims.WF S2048x64x384 S1152x384 S2048x64x1152 [2] [1] [0, 1] [0] [] []
  dot_S2048x12x64x32_S2048x12x64x32_S2048x12x64x64_3_3_2_2_01_01_wf : DotDims.WF S2048x12x64x32 S2048x12x64x32 S2048x12x64x64 [3] [3] [2] [2] [0, 1] [0, 1]
  gather_S121x12_S4096x1_S4096x12_1_0_n_n_0_1_112_wf : GatherDims.WF S121x12 S4096x1 S4096x12 [1] [0] [] [0] [] 1 ![1, 12]
  dot_S2048x12x64x32_S2048x12x64x64_S2048x12x32x64_2_3_3_2_01_01_wf : DotDims.WF S2048x12x64x32 S2048x12x64x64 S2048x12x32x64 [2] [3] [3] [2] [0, 1] [0, 1]
  dot_S2048x64x384_S384x384_S2048x64x384_2_1_01_0_n_n_wf : DotDims.WF S2048x64x384 S384x384 S2048x64x384 [2] [1] [0, 1] [0] [] []

variable [Facts₀]

def dot_S2048x64x384_S1152x384_S2048x64x1152_2_1_01_0_n_n : DotDims S2048x64x384 S1152x384 S2048x64x1152 where
  lhsContracting := [2]
  rhsContracting := [1]
  lhsNonContracting := [0, 1]
  rhsNonContracting := [0]
  lhsBatch := []
  rhsBatch := []
  wf := dot_S2048x64x384_S1152x384_S2048x64x1152_2_1_01_0_n_n_wf
def dot_S2048x12x64x32_S2048x12x64x32_S2048x12x64x64_3_3_2_2_01_01 : DotDims S2048x12x64x32 S2048x12x64x32 S2048x12x64x64 where
  lhsContracting := [3]
  rhsContracting := [3]
  lhsNonContracting := [2]
  rhsNonContracting := [2]
  lhsBatch := [0, 1]
  rhsBatch := [0, 1]
  wf := dot_S2048x12x64x32_S2048x12x64x32_S2048x12x64x64_3_3_2_2_01_01_wf
def gather_S121x12_S4096x1_S4096x12_1_0_n_n_0_1_112 : GatherDims S121x12 S4096x1 S4096x12 where
  offsetDims := [1]
  collapsedSliceDims := [0]
  operandBatchingDims := []
  startIndicesBatchingDims := []
  startIndexMap := [0]
  indexVectorDim := 1
  sliceSizes := ![1, 12]
  wf := gather_S121x12_S4096x1_S4096x12_1_0_n_n_0_1_112_wf
def dot_S2048x12x64x32_S2048x12x64x64_S2048x12x32x64_2_3_3_2_01_01 : DotDims S2048x12x64x32 S2048x12x64x64 S2048x12x32x64 where
  lhsContracting := [2]
  rhsContracting := [3]
  lhsNonContracting := [3]
  rhsNonContracting := [2]
  lhsBatch := [0, 1]
  rhsBatch := [0, 1]
  wf := dot_S2048x12x64x32_S2048x12x64x64_S2048x12x32x64_2_3_3_2_01_01_wf
def dot_S2048x64x384_S384x384_S2048x64x384_2_1_01_0_n_n : DotDims S2048x64x384 S384x384 S2048x64x384 where
  lhsContracting := [2]
  rhsContracting := [1]
  lhsNonContracting := [0, 1]
  rhsNonContracting := [0]
  lhsBatch := []
  rhsBatch := []
  wf := dot_S2048x64x384_S384x384_S2048x64x384_2_1_01_0_n_n_wf

class Facts : Prop extends Facts₀ where

variable [Facts]
-- ==== Proof.LibMatmulRead.lean ====
/-
  A matrix product into a zero accumulator, read at an index on the extended reals.

  When the dimension numbers contract ONE axis of extent `n`, the product at an output index `j` is the sum over
  `k : Fin n` of the left operand at `L k` times the right operand at `R k`, where `L k`, `R k` are the operand indices
  the dimension numbers assign to `j` and the contraction coordinate `k` (hypotheses `hl`, `hr'`: whatever batch and free
  axes there are, the caller names the two index families once).
-/
import Idealize.ShloMosaic.PureOps.Ideal.Laws
import Idealize.ShloMosaic.Lib.ValueIdx

noncomputable section

namespace Cert.MatmulRead

open Idealize.ShloMosaic Idealize.ShloMosaic.ValueIdx

/-- A product into the zero splat, one contracted axis of extent `n`: `∑ k : Fin n, lhs (L k) * rhs (R k)`. -/
theorem matmul_zero_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl k, hr' k]

end Cert.MatmulRead

end
-- ==== Proof.Spec.lean ====
/-
  One attention window, on the extended reals.

  A window holds 64 tokens of 384 channels. The fused projection `proj` sends token `n` to 1152 columns: column
  `s * 384 + h * 32 + d` is the query (`s = 0`), key (`s = 1`) or value (`s = 2`) of head `h` (12 heads) at depth `d`
  (32 per head). The logit of tokens `n`, `m` in head `h` is the scaled query of `n` against the key of `m`, plus the
  relative-position bias of the pair; each row of logits goes through a softmax (shifted by the row's maximum, the
  maximum itself taken from −∞); the weights average the values; the heads' results, laid side by side as 384
  channels, go through the output projection and its bias.

  Every sum is a finite sum over a `Fin`, every product the product of extended reals: both programs are shown to compute
  exactly this function, so no law beyond the commutativity of a product is ever needed to join them.
-/
import Idealize.ShloMosaic.PureOps.Ideal
import Idealize.ShloMosaic.Lib.ValueIdx

noncomputable section

namespace Cert.BoxAttn

open Idealize.ShloMosaic

/-- Column `s * 384 + h * 32 + d` of the fused projection: part `s` (query, key, value), head `h`, depth `d`. -/
def col (s : Fin 3) (h : Fin 12) (d : Fin 32) : Fin 1152 :=
  ⟨s.val * 384 + h.val * 32 + d.val, by have := s.isLt; have := h.isLt; have := d.isLt; omega⟩

theorem col_val (s : Fin 3) (h : Fin 12) (d : Fin 32) : (col s h d).val = s.val * 384 + h.val * 32 + d.val := rfl

/-- The head of channel `j` of the 384 laid side by side, and its depth inside the head. -/
def headOf (j : Fin 384) : Fin 12 := ⟨j.val / 32, by have := j.isLt; omega⟩
def depthOf (j : Fin 384) : Fin 32 := ⟨j.val % 32, Nat.mod_lt _ (by decide)⟩

theorem headOf_val (j : Fin 384) : (headOf j).val = j.val / 32 := rfl
theorem depthOf_val (j : Fin 384) : (depthOf j).val = j.val % 32 := rfl

/-- The query scale `32^(-1/2)` as the f32 word both programs carry (never evaluated: the same word on both sides). -/
def scale : EReal := Ideal.ofBits .f32 0x3E3504F3#32

/-- −∞ as the f32 word the two softmaxes start their maxima from. -/
def negInf : EReal := Ideal.ofBits .f32 0xFF800000#32

/-- A row's maximum as both softmaxes take it: the fold of `max` from −∞ over the row, then once more against −∞. -/
def rowMax (f : Fin 64 → EReal) : EReal := max negInf ((Finset.univ : Finset (Fin 64)).fold max negInf f)

section Window

variable (xr : Fin 64 → Fin 384 → EReal) (W : Fin 1152 → Fin 384 → EReal) (P : Fin 384 → Fin 384 → EReal)
  (pb : Fin 384 → EReal) (bias : Fin 12 → Fin 64 → Fin 64 → EReal)

/-- The fused query/key/value projection of token `n`, column `j`: `∑ k, x (n, k) · W (j, k)`. -/
def proj (n : Fin 64) (j : Fin 1152) : EReal := ∑ k : Fin 384, xr n k * W j k

/-- The logit of the pair (`n`, `m`) in head `h`: scaled query against key, plus the pair's bias. -/
def logit (h : Fin 12) (n m : Fin 64) : EReal :=
  (∑ d : Fin 32, (proj xr W n (col 0 h d) * scale) * proj xr W m (col 1 h d)) + bias h n m

/-- The shifted exponential of a logit. -/
def expo (h : Fin 12) (n m : Fin 64) : EReal :=
  Ideal.exp (logit xr W bias h n m - rowMax (fun m' => logit xr W bias h n m'))

/-- The softmax weight of `m` for token `n` in head `h`. -/
def weight (h : Fin 12) (n m : Fin 64) : EReal :=
  Ideal.div (expo xr W bias h n m) (∑ m' : Fin 64, expo xr W bias h n m')

/-- The weighted average of the values: head `h`, token `n`, depth `d`. -/
def ctx (h : Fin 12) (n : Fin 64) (d : Fin 32) : EReal :=
  ∑ m : Fin 64, weight xr W bias h n m * proj xr W m (col 2 h d)

/-- The window's result at token `n`, channel `c`: the output projection of the heads laid side by side, plus its bias. -/
def out (n : Fin 64) (c : Fin 384) : EReal :=
  (∑ j : Fin 384, ctx xr W bias (headOf j) n (depthOf j) * P c j) + pb c

end Window

end Cert.BoxAttn

end
-- ==== Proof.Layout.lean ====
/-
  How the kernel lays a block of 8 windows out, read at an index (any element type; the shape facts are variables, so
  each lemma matches the printed operation whatever proof the program carries).

  The block's 512 token rows are row `b * 64 + n` = token `n` of window `b`; its 384 channels are channel `h * 32 + d` =
  depth `d` of head `h`; the 96 (window, head) pairs are group `b * 12 + h`. Splitting the heads sends the matrix
  (row, channel) to the stack (group, token, depth); merging them is the way back; a keepdims column is broadcast along
  the last axis; the bias of one window is broadcast over the 8 windows.
-/
import Idealize.ShloMosaic.Lib.Pipeline.Value
import Idealize.ShloMosaic.Lib.ValueIdx
import Idealize.ShloMosaic.PureOps.Ideal.Laws
import proofs.«173567_j4638564679872_1_alg».proof.Proof.Spec

noncomputable section

namespace Cert.BoxAttn

open Idealize.ShloMosaic Idealize.ShloMosaic.ValueIdx

/-- Token `n` of window `b` of the block is row `b * 64 + n`. -/
def rowOf (b : Fin 8) (n : Fin 64) : Fin 512 := ⟨b.val * 64 + n.val, by have := b.isLt; have := n.isLt; omega⟩
/-- Head `h` of window `b` is group `b * 12 + h`. -/
def grp (b : Fin 8) (h : Fin 12) : Fin 96 := ⟨b.val * 12 + h.val, by have := b.isLt; have := h.isLt; omega⟩
/-- Depth `d` of head `h` is channel `h * 32 + d`. -/
def chan (h : Fin 12) (d : Fin 32) : Fin 384 := ⟨h.val * 32 + d.val, by have := h.isLt; have := d.isLt; omega⟩

theorem rowOf_val (b : Fin 8) (n : Fin 64) : (rowOf b n).val = b.val * 64 + n.val := rfl
theorem grp_val (b : Fin 8) (h : Fin 12) : (grp b h).val = b.val * 12 + h.val := rfl
theorem chan_val (h : Fin 12) (d : Fin 32) : (chan h d).val = h.val * 32 + d.val := rfl

/-- A channel is the channel of its head and depth. -/
theorem chan_head_depth (j : Fin 384) : chan (headOf j) (depthOf j) = j :=
  Fin.ext (by show j.val / 32 * 32 + j.val % 32 = j.val; omega)

variable {α : Type}

/-- Splitting the heads: (row, channel) ↦ (group, token, depth). -/
theorem split_heads (Z : (⟨2, ![512, 384]⟩ : Shape).Idx → α)
    (h1 : (⟨2, ![512, 384]⟩ : Shape).ShapeCasts ⟨4, ![8, 64, 12, 32]⟩)
    (h2 : (⟨4, ![8, 64, 12, 32]⟩ : Shape).Transposes [0, 2, 1, 3] ⟨4, ![8, 12, 64, 32]⟩)
    (h3 : (⟨4, ![8, 12, 64, 32]⟩ : Shape).ShapeCasts ⟨3, ![96, 64, 32]⟩)
    (b : Fin 8) (h : Fin 12) (n : Fin 64) (d : Fin 32) :
    shapeCast ⟨3, ![96, 64, 32]⟩ (transpose ⟨4, ![8, 12, 64, 32]⟩ [0, 2, 1, 3] (shapeCast ⟨4, ![8, 64, 12, 32]⟩ Z h1) h2) h3
        (ix3 (grp b h) n d) = Z (ix2 (rowOf b n) (chan h d)) := by
  have hb := b.isLt; have hh := h.isLt; have hn := n.isLt; have hd := d.isLt
  rw [shapeCast_apply _ h3 (ix3 (grp b h) n d) (ix4 b h n d) (by
        rewrite [Shape.rowMajor_val_four, Shape.rowMajor_val_three]
        show ((b.val * 12 + h.val) * 64 + n.val) * 32 + d.val = ((b.val * 12 + h.val) * 64 + n.val) * 32 + d.val; rfl),
    transpose_apply [0, 2, 1, 3] _ h2 (ix4 b h n d) (ix4 b n h d) (fun a => match a with
      | ⟨0, _⟩ => rfl
      | ⟨1, _⟩ => rfl
      | ⟨2, _⟩ => rfl
      | ⟨3, _⟩ => rfl),
    shapeCast_apply Z h1 (ix4 b n h d) (ix2 (rowOf b n) (chan h d)) (by
        rewrite [Shape.rowMajor_val_four, Shape.rowMajor_val_two]
        show (b.val * 64 + n.val) * 384 + (h.val * 32 + d.val) = ((b.val * 64 + n.val) * 12 + h.val) * 32 + d.val; omega)]

/-- Merging the heads: (group, token, depth) laid back as (row, channel). -/
theorem merge_heads (Y : (⟨3, ![96, 64, 32]⟩ : Shape).Idx → α)
    (h1 : (⟨3, ![96, 64, 32]⟩ : Shape).ShapeCasts ⟨4, ![8, 12, 64, 32]⟩)
    (h2 : (⟨4, ![8, 12, 64, 32]⟩ : Shape).Transposes [0, 2, 1, 3] ⟨4, ![8, 64, 12, 32]⟩)
    (h3 : (⟨4, ![8, 64, 12, 32]⟩ : Shape).ShapeCasts ⟨2, ![512, 384]⟩)
    (b : Fin 8) (n : Fin 64) (j : Fin 384) :
    shapeCast ⟨2, ![512, 384]⟩ (transpose ⟨4, ![8, 64, 12, 32]⟩ [0, 2, 1, 3] (shapeCast ⟨4, ![8, 12, 64, 32]⟩ Y h1) h2) h3
        (ix2 (rowOf b n) j) = Y (ix3 (grp b (headOf j)) n (depthOf j)) := by
  have hb := b.isLt; have hn := n.isLt; have hj := j.isLt
  rw [shapeCast_apply _ h3 (ix2 (rowOf b n) j) (ix4 b n (headOf j) (depthOf j)) (by
        rewrite [Shape.rowMajor_val_four, Shape.rowMajor_val_two]
        show ((b.val * 64 + n.val) * 12 + j.val / 32) * 32 + j.val % 32 = (b.val * 64 + n.val) * 384 + j.val; omega),
    transpose_apply [0, 2, 1, 3] _ h2 (ix4 b n (headOf j) (depthOf j)) (ix4 b (headOf j) n (depthOf j)) (fun a => match a with
      | ⟨0, _⟩ => rfl
      | ⟨1, _⟩ => rfl
      | ⟨2, _⟩ => rfl
      | ⟨3, _⟩ => rfl),
    shapeCast_apply Y h1 (ix4 b (headOf j) n (depthOf j)) (ix3 (grp b (headOf j)) n (depthOf j)) (by
        rewrite [Shape.rowMajor_val_four, Shape.rowMajor_val_three]
        show ((b.val * 12 + j.val / 32) * 64 + n.val) * 32 + j.val % 32 = ((b.val * 12 + j.val / 32) * 64 + n.val) * 32 + j.val % 32; rfl)]

/-- The 96 groups read as (window, head), for a stack of 64×64 matrices. -/
theorem ungroup (Y : (⟨3, ![96, 64, 64]⟩ : Shape).Idx → α) (h1 : (⟨3, ![96, 64, 64]⟩ : Shape).ShapeCasts ⟨4, ![8, 12, 64, 64]⟩)
    (b : Fin 8) (h : Fin 12) (n m : Fin 64) :
    shapeCast ⟨4, ![8, 12, 64, 64]⟩ Y h1 (ix4 b h n m) = Y (ix3 (grp b h) n m) :=
  shapeCast_apply Y h1 (ix4 b h n m) (ix3 (grp b h) n m) (by
    rewrite [Shape.rowMajor_val_four, Shape.rowMajor_val_three]
    show ((b.val * 12 + h.val) * 64 + n.val) * 64 + m.val = ((b.val * 12 + h.val) * 64 + n.val) * 64 + m.val; rfl)

/-- … and back. -/
theorem regroup (Y : (⟨4, ![8, 12, 64, 64]⟩ : Shape).Idx → α) (h1 : (⟨4, ![8, 12, 64, 64]⟩ : Shape).ShapeCasts ⟨3, ![96, 64, 64]⟩)
    (b : Fin 8) (h : Fin 12) (n m : Fin 64) :
    shapeCast ⟨3, ![96, 64, 64]⟩ Y h1 (ix3 (grp b h) n m) = Y (ix4 b h n m) :=
  shapeCast_apply Y h1 (ix3 (grp b h) n m) (ix4 b h n m) (by
    rewrite [Shape.rowMajor_val_four, Shape.rowMajor_val_three]
    show ((b.val * 12 + h.val) * 64 + n.val) * 64 + m.val = ((b.val * 12 + h.val) * 64 + n.val) * 64 + m.val; rfl)

/-- One window's bias table broadcast over the 8 windows of the block. -/
theorem bias_bcast (v : (⟨3, ![12, 64, 64]⟩ : Shape).Idx → α)
    (h0 : (⟨3, ![12, 64, 64]⟩ : Shape).ShapeCasts ⟨3, ![12, 64, 64]⟩)
    (h1 : (⟨3, ![12, 64, 64]⟩ : Shape).ShapeCasts ⟨4, ![1, 12, 64, 64]⟩)
    (h2 : (⟨4, ![1, 12, 64, 64]⟩ : Shape).ShapeCasts ⟨4, ![1, 12, 64, 64]⟩)
    (h3 : (⟨4, ![1, 12, 64, 64]⟩ : Shape).Broadcasts ⟨4, ![8, 12, 64, 64]⟩)
    (b : Fin 8) (h : Fin 12) (n m : Fin 64) :
    broadcastTo ⟨4, ![8, 12, 64, 64]⟩ (shapeCast ⟨4, ![1, 12, 64, 64]⟩ (shapeCast ⟨4, ![1, 12, 64, 64]⟩
      (shapeCast ⟨3, ![12, 64, 64]⟩ v h0) h1) h2) h3 (ix4 b h n m) = v (ix3 h n m) := by
  rw [shapeCast_self, shapeCast_self,
    broadcastTo_apply _ h3 (ix4 b h n m) (ix4 (0 : Fin 1) h n m) (fun a => match a with
      | ⟨0, _⟩ => rfl
      | ⟨1, _⟩ => rfl
      | ⟨2, _⟩ => rfl
      | ⟨3, _⟩ => rfl),
    shapeCast_apply v h1 (ix4 (0 : Fin 1) h n m) (ix3 h n m) (by
      rewrite [Shape.rowMajor_val_four, Shape.rowMajor_val_three]
      show (h.val * 64 + n.val) * 64 + m.val = (((0 : Fin 1).val * 12 + h.val) * 64 + n.val) * 64 + m.val
      simp)]

/-- A keepdims column (one value per window, head, token) broadcast along the row. -/
theorem keepdims_bcast (v : (⟨3, ![8, 12, 64]⟩ : Shape).Idx → α)
    (h1 : (⟨3, ![8, 12, 64]⟩ : Shape).ShapeCasts ⟨4, ![8, 12, 64, 1]⟩)
    (h2 : (⟨4, ![8, 12, 64, 1]⟩ : Shape).Broadcasts ⟨4, ![8, 12, 64, 64]⟩)
    (b : Fin 8) (h : Fin 12) (n m : Fin 64) :
    broadcastTo ⟨4, ![8, 12, 64, 64]⟩ (shapeCast ⟨4, ![8, 12, 64, 1]⟩ v h1) h2 (ix4 b h n m) = v (ix3 b h n) := by
  rw [broadcastTo_apply _ h2 (ix4 b h n m) (ix4 b h n (0 : Fin 1)) (fun a => match a with
      | ⟨0, _⟩ => rfl
      | ⟨1, _⟩ => rfl
      | ⟨2, _⟩ => rfl
      | ⟨3, _⟩ => rfl),
    shapeCast_apply v h1 (ix4 b h n (0 : Fin 1)) (ix3 b h n) (by
      rewrite [Shape.rowMajor_val_four, Shape.rowMajor_val_three]
      show (b.val * 12 + h.val) * 64 + n.val = ((b.val * 12 + h.val) * 64 + n.val) * 1 + (0 : Fin 1).val
      simp)]

/-- The 512 rows read back as (window, token). -/
theorem unflatten (Y : (⟨2, ![512, 384]⟩ : Shape).Idx → α) (h1 : (⟨2, ![512, 384]⟩ : Shape).ShapeCasts ⟨3, ![8, 64, 384]⟩)
    (b : Fin 8) (n : Fin 64) (c : Fin 384) :
    shapeCast ⟨3, ![8, 64, 384]⟩ Y h1 (ix3 b n c) = Y (ix2 (rowOf b n) c) :=
  shapeCast_apply Y h1 (ix3 b n c) (ix2 (rowOf b n) c) (by
    rewrite [Shape.rowMajor_val_three, Shape.rowMajor_val_two]
    show (b.val * 64 + n.val) * 384 + c.val = (b.val * 64 + n.val) * 384 + c.val; rfl)

/-- … and the (window, token) rows flattened. -/
theorem flatten (X : (⟨3, ![8, 64, 384]⟩ : Shape).Idx → α) (h1 : (⟨3, ![8, 64, 384]⟩ : Shape).ShapeCasts ⟨2, ![512, 384]⟩)
    (b : Fin 8) (n : Fin 64) (k : Fin 384) :
    shapeCast ⟨2, ![512, 384]⟩ X h1 (ix2 (rowOf b n) k) = X (ix3 b n k) :=
  shapeCast_apply X h1 (ix2 (rowOf b n) k) (ix3 b n k) (by
    rewrite [Shape.rowMajor_val_three, Shape.rowMajor_val_two]
    show (b.val * 64 + n.val) * 384 + k.val = (b.val * 64 + n.val) * 384 + k.val; rfl)

/-- The output bias, one value per channel, broadcast over the 512 rows. -/
theorem chan_bcast (v : (⟨1, ![384]⟩ : Shape).Idx → α) (h1 : (⟨1, ![384]⟩ : Shape).ShapeCasts ⟨2, ![1, 384]⟩)
    (h2 : (⟨2, ![1, 384]⟩ : Shape).Broadcasts ⟨2, ![512, 384]⟩) (r : Fin 512) (c : Fin 384) :
    broadcastTo ⟨2, ![512, 384]⟩ (shapeCast ⟨2, ![1, 384]⟩ v h1) h2 (ix2 r c) = v (ix1 c) := by
  rw [broadcastTo_apply _ h2 (ix2 r c) (ix2 (0 : Fin 1) c) (fun a => match a with
      | ⟨0, _⟩ => rfl
      | ⟨1, _⟩ => rfl),
    shapeCast_apply v h1 (ix2 (0 : Fin 1) c) (ix1 c) (by
      rewrite [Shape.rowMajor_val_two, Shape.rowMajor_val_one]
      show c.val = (0 : Fin 1).val * 384 + c.val
      simp)]

/-- A 384-column slice of the fused projection starting at column `o`. -/
theorem slice_cols (Y : (⟨2, ![512, 1152]⟩ : Shape).Idx → α) (o : Nat)
    (h1 : (⟨2, ![512, 1152]⟩ : Shape).Slices ![0, o] ⟨2, ![512, 384]⟩) (r : Fin 512) (c : Fin 384) (j : Fin 1152)
    (hj : j.val = o + c.val) :
    extractStridedSlice ⟨2, ![512, 384]⟩ ![0, o] Y h1 (ix2 r c) = Y (ix2 r j) :=
  extractStridedSlice_apply ![0, o] Y h1 (ix2 r c) (ix2 r j) (fun a => match a with
    | ⟨0, _⟩ => by show r.val = 0 + r.val; omega
    | ⟨1, _⟩ => by show j.val = o + c.val; exact hj)

/-- A reduced index of the logits with the row coordinate put back. -/
theorem lift_row (hR : (⟨4, ![8, 12, 64, 64]⟩ : Shape).Reduces [3] ⟨3, ![8, 12, 64]⟩) (b : Fin 8) (h : Fin 12) (n : Fin 64)
    (k : Fin ((⟨4, ![8, 12, 64, 64]⟩ : Shape).size 3)) :
    hR.lift (ix3 b h n) k = ix4 b h n (⟨k.val, k.isLt⟩ : Fin 64) := by
  funext c; apply Fin.ext
  fin_cases c <;> rfl

end Cert.BoxAttn

end
-- ==== Proof.KerProj.lean ====
/-
  The kernel's fused projection, read at an index on the extended reals.

  The block of 8 windows is flattened to 512 token rows (row `b * 64 + n` is token `n` of window `b`) and multiplied
  by the transposed projection weights: entry (row, column `j`) is `∑ k, x (b, n, k) · Wt (k, j)`.
-/
import proofs.«173567_j4638564679872_1_alg».proof.Proof.Gen.KernelIdeal.Skeleton
import proofs.«173567_j4638564679872_1_alg».proof.Proof.LibMatmulRead
import proofs.«173567_j4638564679872_1_alg».proof.Proof.Layout
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen Cert.BoxAttn Idealize.ShloMosaic Idealize.ShloMosaic.ValueIdx

/-- The operand indices of the plain 512×384 by 384×1152 product at output `i`, contraction position `q`, axis by axis. -/
theorem qkv_lhs0 (i : S512x1152.Idx) (q : dot_S512x384_S384x1152_S512x1152_1_0_0_1_n_n.contr.Idx) :
    (dot_S512x384_S384x1152_S512x1152_1_0_0_1_n_n.lhsIdx i q 0).val = (i 0).val := by
  unfold DotDims.lhsIdx
  rw [dif_neg (show ¬(0 : Fin S512x384.rank) ∈ dot_S512x384_S384x1152_S512x1152_1_0_0_1_n_n.lhsBatch by decide),
    dif_pos (show (0 : Fin S512x384.rank) ∈ dot_S512x384_S384x1152_S512x1152_1_0_0_1_n_n.lhsNonContracting by decide)]
  rfl
theorem qkv_lhs1 (i : S512x1152.Idx) (q : dot_S512x384_S384x1152_S512x1152_1_0_0_1_n_n.contr.Idx) :
    (dot_S512x384_S384x1152_S512x1152_1_0_0_1_n_n.lhsIdx i q 1).val = (q ⟨0, by decide⟩).val :=
  dot_S512x384_S384x1152_S512x1152_1_0_0_1_n_n.lhsIdx_val_of_single rfl i q
theorem qkv_rhs0 (i : S512x1152.Idx) (q : dot_S512x384_S384x1152_S512x1152_1_0_0_1_n_n.contr.Idx) :
    (dot_S512x384_S384x1152_S512x1152_1_0_0_1_n_n.rhsIdx i q 0).val = (q ⟨0, by decide⟩).val :=
  dot_S512x384_S384x1152_S512x1152_1_0_0_1_n_n.rhsIdx_val_of_single rfl i q
theorem qkv_rhs1 (i : S512x1152.Idx) (q : dot_S512x384_S384x1152_S512x1152_1_0_0_1_n_n.contr.Idx) :
    (dot_S512x384_S384x1152_S512x1152_1_0_0_1_n_n.rhsIdx i q 1).val = (i 1).val := by
  unfold DotDims.rhsIdx
  rw [dif_neg (show ¬(1 : Fin S384x1152.rank) ∈ dot_S512x384_S384x1152_S512x1152_1_0_0_1_n_n.rhsBatch by decide),
    dif_pos (show (1 : Fin S384x1152.rank) ∈ dot_S512x384_S384x1152_S512x1152_1_0_0_1_n_n.rhsNonContracting by decide)]
  rfl

theorem qkv_lhs (r : Fin 512) (j : Fin 1152) (k : Fin 384) :
    dot_S512x384_S384x1152_S512x1152_1_0_0_1_n_n.lhsIdx (ix2 r j)
      ((contrEquiv1 dot_S512x384_S384x1152_S512x1152_1_0_0_1_n_n 384 rfl rfl).symm k) = ix2 r k := by
  have hk := contrEquiv1_symm_val dot_S512x384_S384x1152_S512x1152_1_0_0_1_n_n 384 rfl rfl k
  funext a; apply Fin.ext
  match a with
  | ⟨0, _⟩ => exact qkv_lhs0 _ _
  | ⟨1, _⟩ => exact (qkv_lhs1 _ _).trans hk

theorem qkv_rhs (r : Fin 512) (j : Fin 1152) (k : Fin 384) :
    dot_S512x384_S384x1152_S512x1152_1_0_0_1_n_n.rhsIdx (ix2 r j)
      ((contrEquiv1 dot_S512x384_S384x1152_S512x1152_1_0_0_1_n_n 384 rfl rfl).symm k) = ix2 k j := by
  have hk := contrEquiv1_symm_val dot_S512x384_S384x1152_S512x1152_1_0_0_1_n_n 384 rfl rfl k
  funext a; apply Fin.ext
  match a with
  | ⟨0, _⟩ => exact (qkv_rhs0 _ _).trans hk
  | ⟨1, _⟩ => exact qkv_rhs1 _ _

/-- The fused projection of the block: entry (row of (b, n), j) is `∑ k, x (b, n, k) · Wt (k, j)`. -/
theorem pay2_apply (X0 : Vec Ideal S8x64x384 .f32) (Wt : Vec Ideal S384x1152 .bf16) (b : Fin 8) (n : Fin 64) (j : Fin 1152) :
    k0_pay2 X0 Wt (ix2 (rowOf b n) j) = ∑ k : Fin 384, X0 (ix3 b n k) * Wt (ix2 k j) := by
  unfold k0_pay2
  refine (Cert.MatmulRead.matmul_zero_read dot_S512x384_S384x1152_S512x1152_1_0_0_1_n_n none 384 rfl rfl _ _ _
    (fun k => ix2 (rowOf b n) k) (fun k => ix2 k j) (qkv_lhs _ _) (qkv_rhs _ _)).trans ?_
  refine Finset.sum_congr rfl fun k _ => ?_
  rw [flatten (truncf (F := Ideal) .bf16 X0 bitsLt_bf16_f32) shapeCasts_S8x64x384_S512x384, shapeCast_self]
  rfl

end Cert.KernelIdeal.KerValue

end
-- ==== Proof.KerHeads.lean ====
/-
  The kernel's queries, keys and values, read at an index on the extended reals.

  The fused projection's 1152 columns are cut into three 384-column parts; the query part is scaled; each part's heads
  are split off: entry (group of (b, h), token n, depth d) of a part is the projection at (row of (b, n), column of
  (part, h, d)).
-/
import proofs.«173567_j4638564679872_1_alg».proof.Proof.KerProj

noncomputable section

namespace Cert.KernelIdeal.KerValue

open Cert.KernelIdeal Cert.KernelIdeal.Gen Cert.BoxAttn Idealize.ShloMosaic Idealize.ShloMosaic.ValueIdx

/-- A 512×384 matrix with its heads split off, as the kernel does it (cast, transpose, cast, change of format). -/
def heads (Z : FVec Ideal S512x384 .f32) : FVec Ideal S96x64x32 .bf16 :=
  truncf .bf16 (shapeCast S96x64x32 (transpose S8x12x64x32 [0, 2, 1, 3] (shapeCast S8x64x12x32 Z shapeCasts_S512x384_S8x64x12x32)
    transposes_S8x64x12x32_p0_2_1_3_S8x12x64x32) shapeCasts_S8x12x64x32_S96x64x32) bitsLt_bf16_f32

theorem heads_apply (Z : FVec Ideal S512x384 .f32) (b : Fin 8) (h : Fin 12) (n : Fin 64) (d : Fin 32) :
    heads Z (ix3 (grp b h) n d) = Z (ix2 (rowOf b n) (chan h d)) :=
  split_heads Z shapeCasts_S512x384_S8x64x12x32 transposes_S8x64x12x32_p0_2_1_3_S8x12x64x32 shapeCasts_S8x12x64x32_S96x64x32 b h n d

/-- The scaled queries, the keys and the values of a fused projection `Y`. -/
def queries (Y : FVec Ideal S512x1152 .f32) : FVec Ideal S96x64x32 .bf16 :=
  heads (mulf (extractStridedSlice S512x384 ![0, 0] Y slices_S512x1152_o0_0_S512x384)
    (broadcast S512x384 (Scalar.ofBits (F := Ideal) .f32 0x3E3504F3#32)))
def keys (Y : FVec Ideal S512x1152 .f32) : FVec Ideal S96x64x32 .bf16 :=
  heads (extractStridedSlice S512x384 ![0, 384] Y slices_S512x1152_o0_384_S512x384)
def values (Y : FVec Ideal S512x1152 .f32) : FVec Ideal S96x64x32 .bf16 :=
  heads (extractStridedSlice S512x384 ![0, 768] Y slices_S512x1152_o0_768_S512x384)

theorem queries_apply (Y : FVec Ideal S512x1152 .f32) (b : Fin 8) (h : Fin 12) (n : Fin 64) (d : Fin 32) :
    queries Y (ix3 (grp b h) n d) = Y (ix2 (rowOf b n) (col 0 h d)) * scale := by
  unfold queries
  rw [heads_apply, mulf_apply,
    slice_cols Y 0 slices_S512x1152_o0_0_S512x384 (rowOf b n) (chan h d) (col 0 h d) (by
      show (0 : Fin 3).val * 384 + h.val * 32 + d.val = 0 + (h.val * 32 + d.val); simp)]
  rfl

theorem keys_apply (Y : FVec Ideal S512x1152 .f32) (b : Fin 8) (h : Fin 12) (n : Fin 64) (d : Fin 32) :
    keys Y (ix3 (grp b h) n d) = Y (ix2 (rowOf b n) (col 1 h d)) := by
  unfold keys
  rw [heads_apply,
    slice_cols Y 384 slices_S512x1152_o0_384_S512x384 (rowOf b n) (chan h d) (col 1 h d) (by
      show (1 : Fin 3).val * 384 + h.val * 32 + d.val = 384 + (h.val * 32 + d.val); simp; omega)]

theorem values_apply (Y : FVec Ideal S512x1152 .f32) (b : Fin 8) (h : Fin 12) (n : Fin 64) (d : Fin 32) :
    values Y (ix3 (grp b h) n d) = Y (ix2 (rowOf b n) (col 2 h d)) := by
  unfold values
  rw [heads_apply,
    slice_cols Y 768 slices_S512x1152_o0_768_S512x384 (rowOf b n) (chan h d) (col 2 h d) (by
      show (2 : Fin 3).val * 384 + h.val * 32 + d.val = 768 + (h.val * 32 + d.val); simp; omega)]

/-- The kernel's value payload is the values of its fused projection. -/
theorem pay3_eq (X0 : Vec Ideal S8x64x384 .f32) (Wt : Vec Ideal S384x1152 .bf16) :
    k0_pay3 X0 Wt = values (k0_pay2 X0 Wt) := rfl

end Cert.KernelIdeal.KerValue

end
-- ==== Proof.KerDots.lean ====
/-
  The operand indices of the kernel's three remaining matrix products, axis by axis and then as whole indices.

  Scores: per group, (token n, token m) contracts the depth of query n against key m. Averages: per group, (token n,
  depth d) contracts the row of weights of n against the values at depth d. Output projection: a plain 512×384 by
  384×384 product.
-/
import proofs.«173567_j4638564679872_1_alg».proof.Proof.Gen.KernelIdeal.Skeleton
import proofs.«173567_j4638564679872_1_alg».proof.Proof.LibMatmulRead

noncomputable section

namespace Cert.KernelIdeal.KerValue

open Cert.KernelIdeal Cert.KernelIdeal.Gen Idealize.ShloMosaic Idealize.ShloMosaic.ValueIdx

/-! ## Scores -/
theorem qk_lhs0 (i : S96x64x64.Idx) (q : dot_S96x64x32_S96x64x32_S96x64x64_2_2_1_1_0_0.contr.Idx) :
    (dot_S96x64x32_S96x64x32_S96x64x64_2_2_1_1_0_0.lhsIdx i q 0).val = (i 0).val := by
  unfold DotDims.lhsIdx
  rw [dif_pos (show (0 : Fin S96x64x32.rank) ∈ dot_S96x64x32_S96x64x32_S96x64x64_2_2_1_1_0_0.lhsBatch by decide)]
  rfl
theorem qk_lhs1 (i : S96x64x64.Idx) (q : dot_S96x64x32_S96x64x32_S96x64x64_2_2_1_1_0_0.contr.Idx) :
    (dot_S96x64x32_S96x64x32_S96x64x64_2_2_1_1_0_0.lhsIdx i q 1).val = (i 1).val := by
  unfold DotDims.lhsIdx
  rw [dif_neg (show ¬(1 : Fin S96x64x32.rank) ∈ dot_S96x64x32_S96x64x32_S96x64x64_2_2_1_1_0_0.lhsBatch by decide),
    dif_pos (show (1 : Fin S96x64x32.rank) ∈ dot_S96x64x32_S96x64x32_S96x64x64_2_2_1_1_0_0.lhsNonContracting by decide)]
  rfl
theorem qk_lhs2 (i : S96x64x64.Idx) (q : dot_S96x64x32_S96x64x32_S96x64x64_2_2_1_1_0_0.contr.Idx) :
    (dot_S96x64x32_S96x64x32_S96x64x64_2_2_1_1_0_0.lhsIdx i q 2).val = (q ⟨0, by decide⟩).val :=
  dot_S96x64x32_S96x64x32_S96x64x64_2_2_1_1_0_0.lhsIdx_val_of_single rfl i q
theorem qk_rhs0 (i : S96x64x64.Idx) (q : dot_S96x64x32_S96x64x32_S96x64x64_2_2_1_1_0_0.contr.Idx) :
    (dot_S96x64x32_S96x64x32_S96x64x64_2_2_1_1_0_0.rhsIdx i q 0).val = (i 0).val := by
  unfold DotDims.rhsIdx
  rw [dif_pos (show (0 : Fin S96x64x32.rank) ∈ dot_S96x64x32_S96x64x32_S96x64x64_2_2_1_1_0_0.rhsBatch by decide)]
  rfl
theorem qk_rhs1 (i : S96x64x64.Idx) (q : dot_S96x64x32_S96x64x32_S96x64x64_2_2_1_1_0_0.contr.Idx) :
    (dot_S96x64x32_S96x64x32_S96x64x64_2_2_1_1_0_0.rhsIdx i q 1).val = (i 2).val := by
  unfold DotDims.rhsIdx
  rw [dif_neg (show ¬(1 : Fin S96x64x32.rank) ∈ dot_S96x64x32_S96x64x32_S96x64x64_2_2_1_1_0_0.rhsBatch by decide),
    dif_pos (show (1 : Fin S96x64x32.rank) ∈ dot_S96x64x32_S96x64x32_S96x64x64_2_2_1_1_0_0.rhsNonContracting by decide)]
  rfl
theorem qk_rhs2 (i : S96x64x64.Idx) (q : dot_S96x64x32_S96x64x32_S96x64x64_2_2_1_1_0_0.contr.Idx) :
    (dot_S96x64x32_S96x64x32_S96x64x64_2_2_1_1_0_0.rhsIdx i q 2).val = (q ⟨0, by decide⟩).val :=
  dot_S96x64x32_S96x64x32_S96x64x64_2_2_1_1_0_0.rhsIdx_val_of_single rfl i q

theorem qk_lhs (g : Fin 96) (n m : Fin 64) (k : Fin 32) :
    dot_S96x64x32_S96x64x32_S96x64x64_2_2_1_1_0_0.lhsIdx (ix3 g n m) ((contrEquiv1 dot_S96x64x32_S96x64x32_S96x64x64_2_2_1_1_0_0 32 rfl rfl).symm k) = ix3 g n k := by
  have hk := contrEquiv1_symm_val dot_S96x64x32_S96x64x32_S96x64x64_2_2_1_1_0_0 32 rfl rfl k
  funext a; apply Fin.ext
  match a with
  | ⟨0, _⟩ => exact qk_lhs0 _ _
  | ⟨1, _⟩ => exact qk_lhs1 _ _
  | ⟨2, _⟩ => exact (qk_lhs2 _ _).trans hk

theorem qk_rhs (g : Fin 96) (n m : Fin 64) (k : Fin 32) :
    dot_S96x64x32_S96x64x32_S96x64x64_2_2_1_1_0_0.rhsIdx (ix3 g n m) ((contrEquiv1 dot_S96x64x32_S96x64x32_S96x64x64_2_2_1_1_0_0 32 rfl rfl).symm k) = ix3 g m k := by
  have hk := contrEquiv1_symm_val dot_S96x64x32_S96x64x32_S96x64x64_2_2_1_1_0_0 32 rfl rfl k
  funext a; apply Fin.ext
  match a with
  | ⟨0, _⟩ => exact qk_rhs0 _ _
  | ⟨1, _⟩ => exact qk_rhs1 _ _
  | ⟨2, _⟩ => exact (qk_rhs2 _ _).trans hk

/-- The scores of one group: `∑ d, Q (g, n, d) · K (g, m, d)`. -/
theorem scores_apply (Q K : FVec Ideal S96x64x32 .bf16) (g : Fin 96) (n m : Fin 64) :
    matmul dot_S96x64x32_S96x64x32_S96x64x64_2_2_1_1_0_0 none Q K (constant S96x64x64 .f32 0x00000000#32) (ix3 g n m) = ∑ d : Fin 32, Q (ix3 g n d) * K (ix3 g m d) :=
  Cert.MatmulRead.matmul_zero_read dot_S96x64x32_S96x64x32_S96x64x64_2_2_1_1_0_0 none 32 rfl rfl Q K (ix3 g n m) (fun k => ix3 g n k) (fun k => ix3 g m k)
    (qk_lhs g n m) (qk_rhs g n m)

/-! ## Averages -/
theorem av_lhs0 (i : S96x64x32.Idx) (q : dot_S96x64x64_S96x64x32_S96x64x32_2_1_1_2_0_0.contr.Idx) :
    (dot_S96x64x64_S96x64x32_S96x64x32_2_1_1_2_0_0.lhsIdx i q 0).val = (i 0).val := by
  unfold DotDims.lhsIdx
  rw [dif_pos (show (0 : Fin S96x64x64.rank) ∈ dot_S96x64x64_S96x64x32_S96x64x32_2_1_1_2_0_0.lhsBatch by decide)]
  rfl
theorem av_lhs1 (i : S96x64x32.Idx) (q : dot_S96x64x64_S96x64x32_S96x64x32_2_1_1_2_0_0.contr.Idx) :
    (dot_S96x64x64_S96x64x32_S96x64x32_2_1_1_2_0_0.lhsIdx i q 1).val = (i 1).val := by
  unfold DotDims.lhsIdx
  rw [dif_neg (show ¬(1 : Fin S96x64x64.rank) ∈ dot_S96x64x64_S96x64x32_S96x64x32_2_1_1_2_0_0.lhsBatch by decide),
    dif_pos (show (1 : Fin S96x64x64.rank) ∈ dot_S96x64x64_S96x64x32_S96x64x32_2_1_1_2_0_0.lhsNonContracting by decide)]
  rfl
theorem av_lhs2 (i : S96x64x32.Idx) (q : dot_S96x64x64_S96x64x32_S96x64x32_2_1_1_2_0_0.contr.Idx) :
    (dot_S96x64x64_S96x64x32_S96x64x32_2_1_1_2_0_0.lhsIdx i q 2).val = (q ⟨0, by decide⟩).val :=
  dot_S96x64x64_S96x64x32_S96x64x32_2_1_1_2_0_0.lhsIdx_val_of_single rfl i q
theorem av_rhs0 (i : S96x64x32.Idx) (q : dot_S96x64x64_S96x64x32_S96x64x32_2_1_1_2_0_0.contr.Idx) :
    (dot_S96x64x64_S96x64x32_S96x64x32_2_1_1_2_0_0.rhsIdx i q 0).val = (i 0).val := by
  unfold DotDims.rhsIdx
  rw [dif_pos (show (0 : Fin S96x64x32.rank) ∈ dot_S96x64x64_S96x64x32_S96x64x32_2_1_1_2_0_0.rhsBatch by decide)]
  rfl
theorem av_rhs1 (i : S96x64x32.Idx) (q : dot_S96x64x64_S96x64x32_S96x64x32_2_1_1_2_0_0.contr.Idx) :
    (dot_S96x64x64_S96x64x32_S96x64x32_2_1_1_2_0_0.rhsIdx i q 1).val = (q ⟨0, by decide⟩).val :=
  dot_S96x64x64_S96x64x32_S96x64x32_2_1_1_2_0_0.rhsIdx_val_of_single rfl i q
theorem av_rhs2 (i : S96x64x32.Idx) (q : dot_S96x64x64_S96x64x32_S96x64x32_2_1_1_2_0_0.contr.Idx) :
    (dot_S96x64x64_S96x64x32_S96x64x32_2_1_1_2_0_0.rhsIdx i q 2).val = (i 2).val := by
  unfold DotDims.rhsIdx
  rw [dif_neg (show ¬(2 : Fin S96x64x32.rank) ∈ dot_S96x64x64_S96x64x32_S96x64x32_2_1_1_2_0_0.rhsBatch by decide),
    dif_pos (show (2 : Fin S96x64x32.rank) ∈ dot_S96x64x64_S96x64x32_S96x64x32_2_1_1_2_0_0.rhsNonContracting by decide)]
  rfl

theorem av_lhs (g : Fin 96) (n : Fin 64) (d : Fin 32) (k : Fin 64) :
    dot_S96x64x64_S96x64x32_S96x64x32_2_1_1_2_0_0.lhsIdx (ix3 g n d) ((contrEquiv1 dot_S96x64x64_S96x64x32_S96x64x32_2_1_1_2_0_0 64 rfl rfl).symm k) = ix3 g n k := by
  have hk := contrEquiv1_symm_val dot_S96x64x64_S96x64x32_S96x64x32_2_1_1_2_0_0 64 rfl rfl k
  funext a; apply Fin.ext
  match a with
  | ⟨0, _⟩ => exact av_lhs0 _ _
  | ⟨1, _⟩ => exact av_lhs1 _ _
  | ⟨2, _⟩ => exact (av_lhs2 _ _).trans hk

theorem av_rhs (g : Fin 96) (n : Fin 64) (d : Fin 32) (k : Fin 64) :
    dot_S96x64x64_S96x64x32_S96x64x32_2_1_1_2_0_0.rhsIdx (ix3 g n d) ((contrEquiv1 dot_S96x64x64_S96x64x32_S96x64x32_2_1_1_2_0_0 64 rfl rfl).symm k) = ix3 g k d := by
  have hk := contrEquiv1_symm_val dot_S96x64x64_S96x64x32_S96x64x32_2_1_1_2_0_0 64 rfl rfl k
  funext a; apply Fin.ext
  match a with
  | ⟨0, _⟩ => exact av_rhs0 _ _
  | ⟨1, _⟩ => exact (av_rhs1 _ _).trans hk
  | ⟨2, _⟩ => exact av_rhs2 _ _

/-- The averages of one group: `∑ m, A (g, n, m) · V (g, m, d)`. -/
theorem averages_apply (A : FVec Ideal S96x64x64 .bf16) (V : FVec Ideal S96x64x32 .bf16) (g : Fin 96) (n : Fin 64) (d : Fin 32) :
    matmul dot_S96x64x64_S96x64x32_S96x64x32_2_1_1_2_0_0 none A V (constant S96x64x32 .f32 0x00000000#32) (ix3 g n d) = ∑ m : Fin 64, A (ix3 g n m) * V (ix3 g m d) :=
  Cert.MatmulRead.matmul_zero_read dot_S96x64x64_S96x64x32_S96x64x32_2_1_1_2_0_0 none 64 rfl rfl A V (ix3 g n d) (fun k => ix3 g n k) (fun k => ix3 g k d)
    (av_lhs g n d) (av_rhs g n d)

/-! ## Output projection -/
theorem op_lhs0 (i : S512x384.Idx) (q : dot_S512x384_S384x384_S512x384_1_0_0_1_n_n.contr.Idx) :
    (dot_S512x384_S384x384_S512x384_1_0_0_1_n_n.lhsIdx i q 0).val = (i 0).val := by
  unfold DotDims.lhsIdx
  rw [dif_neg (show ¬(0 : Fin S512x384.rank) ∈ dot_S512x384_S384x384_S512x384_1_0_0_1_n_n.lhsBatch by decide),
    dif_pos (show (0 : Fin S512x384.rank) ∈ dot_S512x384_S384x384_S512x384_1_0_0_1_n_n.lhsNonContracting by decide)]
  rfl
theorem op_lhs1 (i : S512x384.Idx) (q : dot_S512x384_S384x384_S512x384_1_0_0_1_n_n.contr.Idx) :
    (dot_S512x384_S384x384_S512x384_1_0_0_1_n_n.lhsIdx i q 1).val = (q ⟨0, by decide⟩).val :=
  dot_S512x384_S384x384_S512x384_1_0_0_1_n_n.lhsIdx_val_of_single rfl i q
theorem op_rhs0 (i : S512x384.Idx) (q : dot_S512x384_S384x384_S512x384_1_0_0_1_n_n.contr.Idx) :
    (dot_S512x384_S384x384_S512x384_1_0_0_1_n_n.rhsIdx i q 0).val = (q ⟨0, by decide⟩).val :=
  dot_S512x384_S384x384_S512x384_1_0_0_1_n_n.rhsIdx_val_of_single rfl i q
theorem op_rhs1 (i : S512x384.Idx) (q : dot_S512x384_S384x384_S512x384_1_0_0_1_n_n.contr.Idx) :
    (dot_S512x384_S384x384_S512x384_1_0_0_1_n_n.rhsIdx i q 1).val = (i 1).val := by
  unfold DotDims.rhsIdx
  rw [dif_neg (show ¬(1 : Fin S384x384.rank) ∈ dot_S512x384_S384x384_S512x384_1_0_0_1_n_n.rhsBatch by decide),
    dif_pos (show (1 : Fin S384x384.rank) ∈ dot_S512x384_S384x384_S512x384_1_0_0_1_n_n.rhsNonContracting by decide)]
  rfl

theorem op_lhs (r : Fin 512) (c : Fin 384) (k : Fin 384) :
    dot_S512x384_S384x384_S512x384_1_0_0_1_n_n.lhsIdx (ix2 r c) ((contrEquiv1 dot_S512x384_S384x384_S512x384_1_0_0_1_n_n 384 rfl rfl).symm k) = ix2 r k := by
  have hk := contrEquiv1_symm_val dot_S512x384_S384x384_S512x384_1_0_0_1_n_n 384 rfl rfl k
  funext a; apply Fin.ext
  match a with
  | ⟨0, _⟩ => exact op_lhs0 _ _
  | ⟨1, _⟩ => exact (op_lhs1 _ _).trans hk

theorem op_rhs (r : Fin 512) (c : Fin 384) (k : Fin 384) :
    dot_S512x384_S384x384_S512x384_1_0_0_1_n_n.rhsIdx (ix2 r c) ((contrEquiv1 dot_S512x384_S384x384_S512x384_1_0_0_1_n_n 384 rfl rfl).symm k) = ix2 k c := by
  have hk := contrEquiv1_symm_val dot_S512x384_S384x384_S512x384_1_0_0_1_n_n 384 rfl rfl k
  funext a; apply Fin.ext
  match a with
  | ⟨0, _⟩ => exact (op_rhs0 _ _).trans hk
  | ⟨1, _⟩ => exact op_rhs1 _ _

/-- The output projection: `∑ j, O (r, j) · Pt (j, c)`. -/
theorem outproj_apply (O : FVec Ideal S512x384 .bf16) (Pt : FVec Ideal S384x384 .bf16) (r : Fin 512) (c : Fin 384) :
    matmul dot_S512x384_S384x384_S512x384_1_0_0_1_n_n none O Pt (constant S512x384 .f32 0x00000000#32) (ix2 r c) = ∑ j : Fin 384, O (ix2 r j) * Pt (ix2 j c) :=
  Cert.MatmulRead.matmul_zero_read dot_S512x384_S384x384_S512x384_1_0_0_1_n_n none 384 rfl rfl O Pt (ix2 r c) (fun k => ix2 r k) (fun k => ix2 k c)
    (op_lhs r c) (op_rhs r c)

end Cert.KernelIdeal.KerValue

end
-- ==== Proof.KerSoftmax.lean ====
/-
  The kernel's logits and row softmax, read at an index on the extended reals.

  Logits: per (window b, head h), token n against token m: the scores of group (b, h) plus one window's bias at
  (h, n, m). Softmax of a row: the row's maximum (a fold of `max` from −∞, taken once more against −∞), the exponentials
  of the shifted row, their sum, the quotient.
-/
import proofs.«173567_j4638564679872_1_alg».proof.Proof.KerHeads
import proofs.«173567_j4638564679872_1_alg».proof.Proof.KerDots

noncomputable section

namespace Cert.KernelIdeal.KerValue

open Cert.KernelIdeal Cert.KernelIdeal.Gen Cert.BoxAttn Idealize.ShloMosaic Idealize.ShloMosaic.ValueIdx

/-- The block's logits from its queries, its keys and one window's bias. -/
def logits (Q K : FVec Ideal S96x64x32 .bf16) (bias : Vec Ideal S12x64x64 .f32) : FVec Ideal S8x12x64x64 .f32 :=
  addf (shapeCast S8x12x64x64 (matmul dot_S96x64x32_S96x64x32_S96x64x64_2_2_1_1_0_0 none Q K (constant S96x64x64 .f32 0x00000000#32)) shapeCasts_S96x64x64_S8x12x64x64)
    (broadcastTo S8x12x64x64 (shapeCast S1x12x64x64 (shapeCast S1x12x64x64 (shapeCast S12x64x64 bias shapeCasts_S12x64x64_S12x64x64)
      shapeCasts_S12x64x64_S1x12x64x64) shapeCasts_S1x12x64x64_S1x12x64x64) broadcasts_S1x12x64x64_S8x12x64x64)

theorem logits_apply (Q K : FVec Ideal S96x64x32 .bf16) (bias : Vec Ideal S12x64x64 .f32) (b : Fin 8) (h : Fin 12) (n m : Fin 64) :
    logits Q K bias (ix4 b h n m) = (∑ d : Fin 32, Q (ix3 (grp b h) n d) * K (ix3 (grp b h) m d)) + bias (ix3 h n m) := by
  unfold logits
  rw [addf_apply, ungroup _ shapeCasts_S96x64x64_S8x12x64x64, scores_apply,
    bias_bcast (α := EReal) bias shapeCasts_S12x64x64_S12x64x64 shapeCasts_S12x64x64_S1x12x64x64 shapeCasts_S1x12x64x64_S1x12x64x64
      broadcasts_S1x12x64x64_S8x12x64x64]

/-- The maximum of each row of logits. -/
def rowMaxes (L : FVec Ideal S8x12x64x64 .f32) : FVec Ideal S8x12x64 .f32 :=
  maximumf (broadcast S8x12x64 (Scalar.ofBits (F := Ideal) .f32 0xFF800000#32))
    (multiReduction .maximumf [3] S8x12x64 L 0xFF800000#32 reduces_S8x12x64x64_S8x12x64 (.inl rfl) rfl)

theorem rowMaxes_apply (L : FVec Ideal S8x12x64x64 .f32) (b : Fin 8) (h : Fin 12) (n : Fin 64) :
    rowMaxes L (ix3 b h n) = rowMax (fun m => L (ix4 b h n m)) := by
  unfold rowMaxes
  rw [maximumf_apply, broadcast_apply]
  refine congrArg (max _) ((Ideal.multiReduction_maximumf_single L 0xFF800000#32 reduces_S8x12x64x64_S8x12x64 (.inl rfl) rfl (ix3 b h n)).trans ?_)
  have hf : (L ∘ reduces_S8x12x64x64_S8x12x64.lift (ix3 b h n)) = fun m : Fin 64 => L (ix4 b h n m) :=
    funext fun k => congrArg L (lift_row reduces_S8x12x64x64_S8x12x64 b h n k)
  rw [hf]
  rfl

/-- The exponentials of the rows shifted by their maxima. -/
def expos (L : FVec Ideal S8x12x64x64 .f32) : FVec Ideal S8x12x64x64 .f32 :=
  exp (subf L (broadcastTo S8x12x64x64 (shapeCast S8x12x64x1 (rowMaxes L) shapeCasts_S8x12x64_S8x12x64x1) broadcasts_S8x12x64x1_S8x12x64x64))

theorem expos_apply (L : FVec Ideal S8x12x64x64 .f32) (b : Fin 8) (h : Fin 12) (n m : Fin 64) :
    expos L (ix4 b h n m) = Ideal.exp (L (ix4 b h n m) - rowMax (fun m' => L (ix4 b h n m'))) := by
  unfold expos
  show Ideal.exp (L (ix4 b h n m) - broadcastTo S8x12x64x64 (shapeCast S8x12x64x1 (rowMaxes L) shapeCasts_S8x12x64_S8x12x64x1) broadcasts_S8x12x64x1_S8x12x64x64 (ix4 b h n m)) = _
  rw [keepdims_bcast (α := EReal) (rowMaxes L) shapeCasts_S8x12x64_S8x12x64x1 broadcasts_S8x12x64x1_S8x12x64x64, rowMaxes_apply]

/-- The sum of each row of exponentials. -/
def expoSums (L : FVec Ideal S8x12x64x64 .f32) : FVec Ideal S8x12x64 .f32 :=
  multiReduction .add [3] S8x12x64 (expos L) 0x00000000#32 reduces_S8x12x64x64_S8x12x64 (.inl rfl) rfl

theorem expoSums_apply (L : FVec Ideal S8x12x64x64 .f32) (b : Fin 8) (h : Fin 12) (n : Fin 64) :
    expoSums L (ix3 b h n) = ∑ m : Fin 64, expos L (ix4 b h n m) := by
  unfold expoSums
  refine (Ideal.multiReduction_add_single (expos L) 0x00000000#32 reduces_S8x12x64x64_S8x12x64 (.inl rfl) rfl (ix3 b h n)).trans ?_
  exact Finset.sum_congr rfl fun k _ => congrArg (expos L) (lift_row reduces_S8x12x64x64_S8x12x64 b h n k)

/-- The softmax weights, regrouped by (window, head) pair. -/
def weights (L : FVec Ideal S8x12x64x64 .f32) : FVec Ideal S96x64x64 .bf16 :=
  truncf .bf16 (shapeCast S96x64x64 (divf (expos L) (broadcastTo S8x12x64x64 (shapeCast S8x12x64x1 (expoSums L) shapeCasts_S8x12x64_S8x12x64x1)
    broadcasts_S8x12x64x1_S8x12x64x64)) shapeCasts_S8x12x64x64_S96x64x64) bitsLt_bf16_f32

theorem weights_apply (L : FVec Ideal S8x12x64x64 .f32) (b : Fin 8) (h : Fin 12) (n m : Fin 64) :
    weights L (ix3 (grp b h) n m) = Ideal.div (expos L (ix4 b h n m)) (∑ m' : Fin 64, expos L (ix4 b h n m')) := by
  unfold weights
  rw [truncf_apply, regroup _ shapeCasts_S8x12x64x64_S96x64x64, divf_apply,
    keepdims_bcast (α := EReal) (expoSums L) shapeCasts_S8x12x64_S8x12x64x1 broadcasts_S8x12x64x1_S8x12x64x64, expoSums_apply]

/-- The kernel's weight payload is the softmax of the logits of its queries and keys. -/
theorem pay4_eq (X0 : Vec Ideal S8x64x384 .f32) (Wt : Vec Ideal S384x1152 .bf16) (bias : Vec Ideal S12x64x64 .f32) :
    k0_pay4 X0 Wt bias = weights (logits (queries (k0_pay2 X0 Wt)) (keys (k0_pay2 X0 Wt)) bias) := rfl

end Cert.KernelIdeal.KerValue

end
-- ==== Proof.KerOut.lean ====
/-
  The kernel's averages and output projection, read at an index on the extended reals.

  Averages: per group (b, h), token n at depth d is `∑ m, weight (g, n, m) · value (g, m, d)`; the heads are merged back
  into 384 channels per token row. Output projection: row r, channel c is `∑ j, O (r, j) · Pt (j, c)` plus the
  channel's bias; the 512 rows are read back as (window, token).
-/
import proofs.«173567_j4638564679872_1_alg».proof.Proof.KerHeads
import proofs.«173567_j4638564679872_1_alg».proof.Proof.KerDots

noncomputable section

namespace Cert.KernelIdeal.KerValue

open Cert.KernelIdeal Cert.KernelIdeal.Gen Cert.BoxAttn Idealize.ShloMosaic Idealize.ShloMosaic.ValueIdx

/-- The weighted averages of the values, heads merged: a 512×384 matrix. -/
def averages (A : FVec Ideal S96x64x64 .bf16) (V : FVec Ideal S96x64x32 .bf16) : FVec Ideal S512x384 .bf16 :=
  truncf .bf16 (shapeCast S512x384 (transpose S8x64x12x32 [0, 2, 1, 3]
    (shapeCast S8x12x64x32 (matmul dot_S96x64x64_S96x64x32_S96x64x32_2_1_1_2_0_0 none A V (constant S96x64x32 .f32 0x00000000#32)) shapeCasts_S96x64x32_S8x12x64x32)
    transposes_S8x12x64x32_p0_2_1_3_S8x64x12x32) shapeCasts_S8x64x12x32_S512x384) bitsLt_bf16_f32

theorem averages_apply' (A : FVec Ideal S96x64x64 .bf16) (V : FVec Ideal S96x64x32 .bf16) (b : Fin 8) (n : Fin 64) (j : Fin 384) :
    averages A V (ix2 (rowOf b n) j)
      = ∑ m : Fin 64, A (ix3 (grp b (headOf j)) n m) * V (ix3 (grp b (headOf j)) m (depthOf j)) := by
  unfold averages
  rw [truncf_apply, merge_heads _ shapeCasts_S96x64x32_S8x12x64x32 transposes_S8x12x64x32_p0_2_1_3_S8x64x12x32 shapeCasts_S8x64x12x32_S512x384,
    averages_apply]

/-- The output projection of a 512×384 matrix, with its bias, read back as (window, token, channel). -/
def projected (O : FVec Ideal S512x384 .bf16) (Pt : Vec Ideal S384x384 .bf16) (pb : Vec Ideal S384 .f32) : FVec Ideal S8x64x384 .f32 :=
  shapeCast S8x64x384 (addf (matmul dot_S512x384_S384x384_S512x384_1_0_0_1_n_n none O (shapeCast S384x384 Pt shapeCasts_S384x384_S384x384 : FVec Ideal S384x384 .bf16) (constant S512x384 .f32 0x00000000#32))
    (broadcastTo S512x384 (shapeCast S1x384 pb shapeCasts_S384_S1x384) broadcasts_S1x384_S512x384)) shapeCasts_S512x384_S8x64x384

theorem projected_apply (O : FVec Ideal S512x384 .bf16) (Pt : Vec Ideal S384x384 .bf16) (pb : Vec Ideal S384 .f32)
    (b : Fin 8) (n : Fin 64) (c : Fin 384) :
    projected O Pt pb (ix3 b n c) = (∑ j : Fin 384, O (ix2 (rowOf b n) j) * Pt (ix2 j c)) + pb (ix1 c) := by
  unfold projected
  rw [unflatten _ shapeCasts_S512x384_S8x64x384, addf_apply, outproj_apply, shapeCast_self,
    chan_bcast (α := EReal) pb shapeCasts_S384_S1x384 broadcasts_S1x384_S512x384]

/-- The kernel's stored payload is the projection of the averages. -/
theorem pay1_eq (v22 : FVec Ideal S96x64x32 .bf16) (v43 : FVec Ideal S96x64x64 .bf16) (v49 : Vec Ideal S384x384 .bf16) (v52 : Vec Ideal S384 .f32) :
    k0_pay1 v22 v43 (constant S96x64x32 .f32 0x00000000#32) v49 v52 = projected (averages v43 v22) v49 v52 := rfl

end Cert.KernelIdeal.KerValue

end
-- ==== Proof.KerWindow.lean ====
/-
  One block of the kernel computes, window by window, the attention window of the specification.

  For the block's input `X0` (8 windows), the transposed weights `Wt`, `Pt`, the output bias `pb` and one window's
  relative-position bias, the stored payload at (window b, token n, channel c) is `Cert.BoxAttn.out` of window `b`'s
  tokens, with the weights read transposed.
-/
import proofs.«173567_j4638564679872_1_alg».proof.Proof.KerSoftmax
import proofs.«173567_j4638564679872_1_alg».proof.Proof.KerOut

noncomputable section

namespace Cert.KernelIdeal.KerValue

open Cert.KernelIdeal Cert.KernelIdeal.Gen Cert.BoxAttn Idealize.ShloMosaic Idealize.ShloMosaic.ValueIdx

section
variable (X0 : Vec Ideal S8x64x384 .f32) (Wt : Vec Ideal S384x1152 .bf16) (bias : Vec Ideal S12x64x64 .f32)

/-- The block's logits are the specification's, window by window. -/
theorem logits_window (b : Fin 8) (h : Fin 12) (n m : Fin 64) :
    logits (queries (k0_pay2 X0 Wt)) (keys (k0_pay2 X0 Wt)) bias (ix4 b h n m)
      = logit (fun n k => X0 (ix3 b n k)) (fun j k => Wt (ix2 k j)) (fun h n m => bias (ix3 h n m)) h n m := by
  rw [logits_apply]
  unfold logit proj
  refine congrArg (· + bias (ix3 h n m)) (Finset.sum_congr rfl fun d _ => ?_)
  rw [queries_apply, keys_apply, pay2_apply, pay2_apply]

theorem expos_window (b : Fin 8) (h : Fin 12) (n m : Fin 64) :
    expos (logits (queries (k0_pay2 X0 Wt)) (keys (k0_pay2 X0 Wt)) bias) (ix4 b h n m)
      = expo (fun n k => X0 (ix3 b n k)) (fun j k => Wt (ix2 k j)) (fun h n m => bias (ix3 h n m)) h n m := by
  rw [expos_apply]
  unfold expo
  simp only [logits_window]

theorem weights_window (b : Fin 8) (h : Fin 12) (n m : Fin 64) :
    weights (logits (queries (k0_pay2 X0 Wt)) (keys (k0_pay2 X0 Wt)) bias) (ix3 (grp b h) n m)
      = weight (fun n k => X0 (ix3 b n k)) (fun j k => Wt (ix2 k j)) (fun h n m => bias (ix3 h n m)) h n m := by
  rw [weights_apply]
  unfold weight
  simp only [expos_window]

end

/-- The stored payload at (window b, token n, channel c) is the specification's window. -/
theorem ker_out (X0 : Vec Ideal S8x64x384 .f32) (Wt : Vec Ideal S384x1152 .bf16) (Pt : Vec Ideal S384x384 .bf16)
    (pb : Vec Ideal S384 .f32) (bias : Vec Ideal S12x64x64 .f32) (b : Fin 8) (n : Fin 64) (c : Fin 384) :
    k0_pay1 (k0_pay3 X0 Wt) (k0_pay4 X0 Wt bias) (constant S96x64x32 .f32 0x00000000#32) Pt pb (ix3 b n c)
      = out (fun n k => X0 (ix3 b n k)) (fun j k => Wt (ix2 k j)) (fun c j => Pt (ix2 j c)) (fun c => pb (ix1 c))
          (fun h n m => bias (ix3 h n m)) n c := by
  rw [pay1_eq, pay3_eq, pay4_eq, projected_apply]
  unfold out
  refine congrArg (· + pb (ix1 c)) (Finset.sum_congr rfl fun j _ => ?_)
  refine congrArg (· * Pt (ix2 j c)) ?_
  rw [averages_apply']
  unfold ctx proj
  refine Finset.sum_congr rfl fun m _ => ?_
  rw [weights_window, values_apply, pay2_apply]

end Cert.KernelIdeal.KerValue

end
-- ==== Proof.Whole.lean ====
/-
  The whole result array: window `B` of the 2048, token `n`, channel `c` is the attention window of window `B`'s tokens
  under the shared weights, output bias and relative-position bias.
-/
import proofs.«173567_j4638564679872_1_alg».proof.Proof.Spec

noncomputable section

namespace Cert.BoxAttn

open Idealize.ShloMosaic Idealize.ShloMosaic.ValueIdx

/-- The result as one function of the argument arrays and the gathered relative-position bias. -/
def whole (a0 : (⟨3, ![2048, 64, 384]⟩ : Shape).Idx → EReal) (a1 : (⟨2, ![1152, 384]⟩ : Shape).Idx → EReal)
    (a2 : (⟨2, ![384, 384]⟩ : Shape).Idx → EReal) (a3 : (⟨1, ![384]⟩ : Shape).Idx → EReal)
    (bias : (⟨3, ![12, 64, 64]⟩ : Shape).Idx → EReal) : (⟨3, ![2048, 64, 384]⟩ : Shape).Idx → EReal :=
  fun i => out (fun n k => a0 (ix3 (⟨(i 0).val, (i 0).isLt⟩ : Fin 2048) n k)) (fun j k => a1 (ix2 j k)) (fun c j => a2 (ix2 c j))
    (fun c => a3 (ix1 c)) (fun h n m => bias (ix3 h n m)) (⟨(i 1).val, (i 1).isLt⟩ : Fin 64) (⟨(i 2).val, (i 2).isLt⟩ : Fin 384)

theorem whole_ix3 (a0 : (⟨3, ![2048, 64, 384]⟩ : Shape).Idx → EReal) (a1 : (⟨2, ![1152, 384]⟩ : Shape).Idx → EReal)
    (a2 : (⟨2, ![384, 384]⟩ : Shape).Idx → EReal) (a3 : (⟨1, ![384]⟩ : Shape).Idx → EReal)
    (bias : (⟨3, ![12, 64, 64]⟩ : Shape).Idx → EReal) (B : Fin 2048) (n : Fin 64) (c : Fin 384) :
    whole a0 a1 a2 a3 bias (ix3 B n c)
      = out (fun n k => a0 (ix3 B n k)) (fun j k => a1 (ix2 j k)) (fun c j => a2 (ix2 c j)) (fun c => a3 (ix1 c))
          (fun h n m => bias (ix3 h n m)) n c := rfl

end Cert.BoxAttn

end
-- ==== Proof.KerArray.lean ====
/-
  From blocks to the array: after the kernel's run its result array is, index by index, the attention window of the
  specification.

  Grid point `t` stages windows `8 t … 8 t + 7` of the input (the other four operands are staged whole at every point) and
  writes back the same eight windows of the result; the 256 points' blocks tile the result array. The weights reach the
  kernel transposed by host operations, so the kernel's "transposed weight at (k, j)" is the argument at (j, k).
-/
import proofs.«173567_j4638564679872_1_alg».proof.Proof.Gen.KernelIdeal.Value
import proofs.«173567_j4638564679872_1_alg».proof.Proof.KerWindow
import proofs.«173567_j4638564679872_1_alg».proof.Proof.Whole
import Idealize.ShloMosaic.Lib.StableHlo.Run
import Idealize.ShloMosaic.Lib.ValueLayout

noncomputable section

namespace Cert.KernelIdeal.KerArray

open Cert.KernelIdeal Cert.KernelIdeal.Gen Cert.KernelIdeal.KerValue Cert.BoxAttn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The result as one function of the arrays the region finds -/

/-- Window `B`, token `n`, channel `c` of the result, from the arrays as the region finds them: the input, the two weights
    already transposed, the output bias, one window's relative-position bias. -/
def G (A0 : S2048x64x384.Idx → EReal) (A1 : S384x1152.Idx → EReal) (A2 : S384x384.Idx → EReal) (A3 : S384.Idx → EReal)
    (A4 : S12x64x64.Idx → EReal) : S2048x64x384.Idx → EReal :=
  fun i => out (fun n k => A0 (ix3 (⟨(i 0).val, (i 0).isLt⟩ : Fin 2048) n k)) (fun j k => A1 (ix2 k j)) (fun c j => A2 (ix2 j c))
    (fun c => A3 (ix1 c)) (fun h n m => A4 (ix3 h n m)) (⟨(i 1).val, (i 1).isLt⟩ : Fin 64) (⟨(i 2).val, (i 2).isLt⟩ : Fin 384)

/-- One block's payload at (b, n, c) is `G` at (B, n, c) when the block's input is windows `B - b … ` of the array's and
    the other operands are the whole arrays. -/
theorem block_point (A0 : S2048x64x384.Idx → EReal) (A1 : S384x1152.Idx → EReal) (A2 : S384x384.Idx → EReal) (A3 : S384.Idx → EReal)
    (A4 : S12x64x64.Idx → EReal) (X0 : Vec Ideal S8x64x384 .f32) (Wt : Vec Ideal S384x1152 .bf16) (Pt : Vec Ideal S384x384 .bf16)
    (pb : Vec Ideal S384 .f32) (bias : Vec Ideal S12x64x64 .f32) (b : Fin 8) (n : Fin 64) (c : Fin 384) (B : Fin 2048)
    (hX : ∀ (n : Fin 64) (k : Fin 384), X0 (ix3 b n k) = A0 (ix3 B n k))
    (hW : ∀ y, Wt y = A1 y) (hP : ∀ y, Pt y = A2 y) (hb : ∀ y, pb y = A3 y) (hB : ∀ y, bias y = A4 y) :
    k0_pay1 (k0_pay3 X0 Wt) (k0_pay4 X0 Wt bias) (constant S96x64x32 .f32 0x00000000#32) Pt pb (ix3 b n c)
      = G A0 A1 A2 A3 A4 (ix3 B n c) := by
  rw [ker_out]
  show _ = out (fun n k => A0 (ix3 B n k)) (fun j k => A1 (ix2 k j)) (fun c j => A2 (ix2 j c)) (fun c => A3 (ix1 c))
    (fun h n m => A4 (ix3 h n m)) n c
  have e0 : (fun (n : Fin 64) (k : Fin 384) => X0 (ix3 b n k)) = fun n k => A0 (ix3 B n k) := funext fun n => funext fun k => hX n k
  have e1 : (fun (j : Fin 1152) (k : Fin 384) => Wt (ix2 k j)) = fun j k => A1 (ix2 k j) := funext fun j => funext fun k => hW _
  have e2 : (fun (c : Fin 384) (j : Fin 384) => Pt (ix2 j c)) = fun c j => A2 (ix2 j c) := funext fun c => funext fun j => hP _
  have e3 : (fun (c : Fin 384) => pb (ix1 c)) = fun c => A3 (ix1 c) := funext fun c => hb _
  have e4 : (fun (h : Fin 12) (n m : Fin 64) => bias (ix3 h n m)) = fun h n m => A4 (ix3 h n m) :=
    funext fun h => funext fun n => funext fun m => hB _
  rw [e0, e1, e2, e3, e4]

/-! ## The windows' blocks -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 256 grid points: the input's and the result's block index is the point on
    the window axis, every other block index is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The input's block at point `t`, window `b`, is window `8 t + b` of the array. -/
theorem iblk0_apply (c : Dev nD) (t : Fin cfg0.N) (b : Fin 8) (n : Fin 64) (k : Fin 384) (B : Fin 2048) (hB : B.val = t.val * 8 + b.val) :
    (iblk m c 0 t : Vec Ideal S8x64x384 .f32) (ix3 b n k) = (V m c main_arg0 : S2048x64x384.Idx → EReal) (ix3 B n k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 8 + 1 * b.val = B.val; rw [e0, hB]; omega
  | ⟨1, _⟩ => show win0_0.index t (1 : Fin 3) * 64 + 1 * n.val = n.val; rw [e1]; omega
  | ⟨2, _⟩ => show win0_0.index t (2 : Fin 3) * 384 + 1 * k.val = k.val; rw [e2]; omega

/-- The four operands staged whole: their block at any point is the array. -/
theorem iblk1_apply (c : Dev nD) (t : Fin cfg0.N) (y : S384x1152.Idx) :
    (iblk m c 1 t : Vec Ideal S384x1152 .bf16) y = (V m c main_v11 : S384x1152.Idx → EReal) y := by
  obtain ⟨-, -, -, e0, e1, -⟩ := idx_facts t
  unfold iblk
  rw [View.read_apply]
  show V m c main_v11 _ = V m c main_v11 _
  congr 1
  funext a
  apply Fin.ext
  match a with
  | ⟨0, _⟩ => show win0_1.index t (0 : Fin 2) * 384 + 1 * (y 0).val = (y 0).val; rw [e0]; omega
  | ⟨1, _⟩ => show win0_1.index t (1 : Fin 2) * 1152 + 1 * (y 1).val = (y 1).val; rw [e1]; omega

theorem iblk2_apply (c : Dev nD) (t : Fin cfg0.N) (y : S384x384.Idx) :
    (iblk m c 2 t : Vec Ideal S384x384 .bf16) y = (V m c main_v13 : S384x384.Idx → EReal) y := by
  obtain ⟨-, -, -, -, -, e0, e1, -⟩ := idx_facts t
  unfold iblk
  rw [View.read_apply]
  show V m c main_v13 _ = V m c main_v13 _
  congr 1
  funext a
  apply Fin.ext
  match a with
  | ⟨0, _⟩ => show win0_2.index t (0 : Fin 2) * 384 + 1 * (y 0).val = (y 0).val; rw [e0]; omega
  | ⟨1, _⟩ => show win0_2.index t (1 : Fin 2) * 384 + 1 * (y 1).val = (y 1).val; rw [e1]; omega

theorem iblk3_apply (c : Dev nD) (t : Fin cfg0.N) (y : S384.Idx) :
    (iblk m c 3 t : Vec Ideal S384 .f32) y = (V m c main_arg3 : S384.Idx → EReal) y := by
  obtain ⟨-, -, -, -, -, -, -, e0, -⟩ := idx_facts t
  unfold iblk
  rw [View.read_apply]
  show V m c main_arg3 _ = V m c main_arg3 _
  congr 1
  funext a
  apply Fin.ext
  match a with
  | ⟨0, _⟩ => show win0_3.index t (0 : Fin 1) * 384 + 1 * (y 0).val = (y 0).val; rw [e0]; omega

theorem iblk4_apply (c : Dev nD) (t : Fin cfg0.N) (y : S12x64x64.Idx) :
    (iblk m c 4 t : Vec Ideal S12x64x64 .f32) y = (V m c main_v9 : S12x64x64.Idx → EReal) y := by
  obtain ⟨-, -, -, -, -, -, -, -, e0, e1, e2, -⟩ := idx_facts t
  unfold iblk
  rw [View.read_apply]
  show V m c main_v9 _ = V m c main_v9 _
  congr 1
  funext a
  apply Fin.ext
  match a with
  | ⟨0, _⟩ => show win0_4.index t (0 : Fin 3) * 12 + 1 * (y 0).val = (y 0).val; rw [e0]; omega
  | ⟨1, _⟩ => show win0_4.index t (1 : Fin 3) * 64 + 1 * (y 1).val = (y 1).val; rw [e1]; omega
  | ⟨2, _⟩ => show win0_4.index t (2 : Fin 3) * 64 + 1 * (y 2).val = (y 2).val; rw [e2]; omega

/-! ## What a point writes back, and the cover -/

/-- What point `t` writes back is block `t` of `G` of the arrays as the region finds them. -/
theorem flushed_eq (c : Dev nD) (t : Fin cfg0.N) :
    (dats m 0 c).flushed 5 t = ((cfg0.win 5).blk t).view.read (Elt Ideal)
      (G (V m c main_arg0) (V m c main_v11) (V m c main_v13) (V m c main_arg3) (V m c main_v9)) := by
  rw [Value.flushed5]
  unfold out0_5
  rw [View.canon_unit_zero hz3]
  simp only [View.ld_unit_zero (S := S8x64x384) hz3, View.ld_unit_zero (S := S384x1152) hz2, View.ld_unit_zero (S := S12x64x64) hz3,
    View.ld_unit_zero (S := S384x384) hz2, View.ld_unit_zero (S := S384) hz1]
  obtain ⟨-, -, -, -, -, -, -, -, -, -, -, e0, e1, e2⟩ := idx_facts t
  funext j
  have hj0 : (j 0).val < 8 := (j 0).isLt
  have hj1 : (j 1).val < 64 := (j 1).isLt
  have hj2 : (j 2).val < 384 := (j 2).isLt
  have ht : t.val < 256 := by have := t.isLt; have hN : cfg0.N = 256 := N_0; omega
  have ej : (j : S8x64x384.Idx) = ix3 (⟨(j 0).val, hj0⟩ : Fin 8) (⟨(j 1).val, hj1⟩ : Fin 64) (⟨(j 2).val, hj2⟩ : Fin 384) :=
    funext fun a => Fin.ext (by match a with | ⟨0, _⟩ => rfl | ⟨1, _⟩ => rfl | ⟨2, _⟩ => rfl)
  have ei : ((cfg0.win 5).blk t).view.emb j
      = ix3 (⟨t.val * 8 + (j 0).val, by omega⟩ : Fin 2048) (⟨(j 1).val, hj1⟩ : Fin 64) (⟨(j 2).val, hj2⟩ : Fin 384) := by
    funext a
    apply Fin.ext
    match a with
    | ⟨0, _⟩ => show win0_5.index t (0 : Fin 3) * 8 + 1 * (j 0).val = t.val * 8 + (j 0).val; rw [e0]; omega
    | ⟨1, _⟩ => show win0_5.index t (1 : Fin 3) * 64 + 1 * (j 1).val = (j 1).val; rw [e1]; omega
    | ⟨2, _⟩ => show win0_5.index t (2 : Fin 3) * 384 + 1 * (j 2).val = (j 2).val; rw [e2]; omega
  show k0_pay1 (k0_pay3 (iblk m c 0 t) (iblk m c 1 t)) (k0_pay4 (iblk m c 0 t) (iblk m c 1 t) (iblk m c 4 t))
      (constant S96x64x32 .f32 0x00000000#32) (iblk m c 2 t) (iblk m c 3 t) j
    = G (V m c main_arg0) (V m c main_v11) (V m c main_v13) (V m c main_arg3) (V m c main_v9) (((cfg0.win 5).blk t).view.emb j)
  rw [ei]
  refine (congrArg (k0_pay1 (k0_pay3 (iblk m c 0 t) (iblk m c 1 t)) (k0_pay4 (iblk m c 0 t) (iblk m c 1 t) (iblk m c 4 t))
      (constant S96x64x32 .f32 0x00000000#32) (iblk m c 2 t) (iblk m c 3 t)) ej).trans ?_
  exact block_point (V m c main_arg0) (V m c main_v11) (V m c main_v13) (V m c main_arg3) (V m c main_v9)
    (iblk m c 0 t) (iblk m c 1 t) (iblk m c 2 t) (iblk m c 3 t) (iblk m c 4 t) _ _ _ _
    (fun n k => iblk0_apply m c t _ n k _ rfl) (iblk1_apply m c t) (iblk2_apply m c t) (iblk3_apply m c t) (iblk4_apply m c t)

/-- An index of the result is in point `t`'s block iff each coordinate is in the block's range on its axis. -/
theorem mem_blk (t : Fin cfg0.N) (i : S2048x64x384.Idx) :
    i ∈ ((cfg0.win 5).blk t).view.set ↔ ∀ a : Fin 3, win0_5.index t a * S8x64x384.size a ≤ (i a).val
      ∧ (i a).val < win0_5.index t a * S8x64x384.size a + S8x64x384.size a := by
  show i ∈ ((View.whole main_v14).slice (win0_5.rect t)).set ↔ _
  rw [View.set_slice_whole, Rect.mem_set_unit]
  exact Iff.rfl

/-- Window `B` of the result lies in the block of point `B / 8`. -/
theorem cover (i : S2048x64x384.Idx) : ∃ t : Fin cfg0.N, (cfg0.win 5).flush t = true ∧ i ∈ ((cfg0.win 5).blk t).view.set := by
  have hi0 : (i 0).val < 2048 := (i 0).isLt
  have hi1 : (i 1).val < 64 := (i 1).isLt
  have hi2 : (i 2).val < 384 := (i 2).isLt
  have hN : cfg0.N = 256 := N_0
  let t : Fin cfg0.N := ⟨(i 0).val / 8, by rw [hN]; omega⟩
  obtain ⟨-, -, -, -, -, -, -, -, -, -, -, e0, e1, e2⟩ := idx_facts t
  refine ⟨t, flush0_5 t, ?_⟩
  rw [mem_blk]
  intro a
  match a with
  | ⟨0, _⟩ => show win0_5.index t (0 : Fin 3) * 8 ≤ (i 0).val ∧ (i 0).val < win0_5.index t (0 : Fin 3) * 8 + 8
              rw [e0]; show (i 0).val / 8 * 8 ≤ (i 0).val ∧ (i 0).val < (i 0).val / 8 * 8 + 8; omega
  | ⟨1, _⟩ => show win0_5.index t (1 : Fin 3) * 64 ≤ (i 1).val ∧ (i 1).val < win0_5.index t (1 : Fin 3) * 64 + 64
              rw [e1]; omega
  | ⟨2, _⟩ => show win0_5.index t (2 : Fin 3) * 384 ≤ (i 2).val ∧ (i 2).val < win0_5.index t (2 : Fin 3) * 384 + 384
              rw [e2]; omega

/-- The result array after the run. -/
theorem final_blocks (c : Dev nD) : (dats m 0 c).arrAt 5 cfg0.N
    = G (V m c main_arg0) (V m c main_v11) (V m c main_v13) (V m c main_arg3) (V m c main_v9) :=
  (dats m 0 c).arrAt_eq_of_cover 5 _ (fun t _ => flushed_eq m c t) cover

end Cert.KernelIdeal.KerArray

end
-- ==== Proof.KerRun.lean ====
/-
  The kernel's run, read: the result array is the whole-array specification of the argument arrays.

  Three of the region's operands are written by host operations before it: the two weights transposed (and changed of
  format, the identity on the extended reals), and the relative-position bias gathered from its table through the index
  array. The transposes are undone index by index; the gathered bias stays the closed term `relBias`, the same host
  operations the reference applies.
-/
import proofs.«173567_j4638564679872_1_alg».proof.Proof.KerArray

noncomputable section

namespace Cert.KernelIdeal.KerArray

open Cert.KernelIdeal Cert.KernelIdeal.Gen Cert.KernelIdeal.KerValue Cert.BoxAttn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The relative-position bias as the host operations compute it: the index array flattened, negative indices wrapped by
    the table's length, the table's rows gathered, the result laid out as (head, token, token). -/
def relBias (a4 : S121x12.Idx → EReal) (a5 : S64x64.Idx → BitVec 32) : S12x64x64.Idx → EReal :=
  transpose S12x64x64 [2, 0, 1]
    (shapeCast S64x64x12
      (Host.gather gather_S121x12_S4096x1_S4096x12_1_0_n_n_0_1_112 a4
        (broadcastInDim S4096x1 ![0] bcast_S4096_S4096x1_0
          (select
            (cmpi CmpIPredicate.slt (shapeCast S4096 a5 shapeCasts_S64x64_S4096)
              (broadcastInDim S4096 ![] bcast_S_S4096 (constantI S_ 32 0#32)))
            (addi (shapeCast S4096 a5 shapeCasts_S64x64_S4096)
              (broadcastInDim S4096 ![] bcast_S_S4096 (constantI S_ 32 121#32)))
            (shapeCast S4096 a5 shapeCasts_S64x64_S4096))))
      shapeCasts_S4096x12_S64x64x12)
    transposes_S64x64x12_S12x64x64_2_0_1

/-- What the region finds in the three arrays host operations wrote. -/
theorem V_bias (c : Dev nD) : (V m c main_v9 : S12x64x64.Idx → EReal)
    = relBias (m ((c : Thread nD τ).loc main_arg4)) (m ((c : Thread nD τ).loc main_arg5)) := by
  dsimp only [Gen.V, Gen.hostOps0]
  after_results
  rfl

theorem V_qkvT (c : Dev nD) : (V m c main_v11 : FVec Ideal S384x1152 .bf16)
    = truncf (F := Ideal) .bf16 (transpose S384x1152 [1, 0] (m ((c : Thread nD τ).loc main_arg1) : FVec Ideal S1152x384 .f32)
        transposes_S1152x384_S384x1152_1_0) bitsLt_bf16_f32 := by
  dsimp only [Gen.V, Gen.hostOps0]
  after_results

theorem V_projT (c : Dev nD) : (V m c main_v13 : FVec Ideal S384x384 .bf16)
    = truncf (F := Ideal) .bf16 (transpose S384x384 [1, 0] (m ((c : Thread nD τ).loc main_arg2) : FVec Ideal S384x384 .f32)
        transposes_S384x384_S384x384_1_0) bitsLt_bf16_f32 := by
  dsimp only [Gen.V, Gen.hostOps0]
  after_results

/-- With the transposes undone, `G` of the arrays the region finds is the whole-array specification. -/
theorem G_eq_whole (a0 : S2048x64x384.Idx → EReal) (a1 : FVec Ideal S1152x384 .f32) (a2 : FVec Ideal S384x384 .f32) (a3 : S384.Idx → EReal)
    (bias : S12x64x64.Idx → EReal) :
    G a0 (truncf (F := Ideal) .bf16 (transpose S384x1152 [1, 0] a1 transposes_S1152x384_S384x1152_1_0) bitsLt_bf16_f32)
      (truncf (F := Ideal) .bf16 (transpose S384x384 [1, 0] a2 transposes_S384x384_S384x384_1_0) bitsLt_bf16_f32) a3 bias
    = whole a0 a1 a2 a3 bias := by
  funext i
  unfold G whole
  have e1 : (fun (j : Fin 1152) (k : Fin 384) =>
      (truncf (F := Ideal) .bf16 (transpose S384x1152 [1, 0] a1 transposes_S1152x384_S384x1152_1_0) bitsLt_bf16_f32) (ix2 k j))
      = fun j k => a1 (ix2 j k) :=
    funext fun j => funext fun k => transpose_ix2_apply a1 transposes_S1152x384_S384x1152_1_0 k j
  have e2 : (fun (c : Fin 384) (j : Fin 384) =>
      (truncf (F := Ideal) .bf16 (transpose S384x384 [1, 0] a2 transposes_S384x384_S384x384_1_0) bitsLt_bf16_f32) (ix2 j c))
      = fun c j => a2 (ix2 c j) :=
    funext fun c => funext fun j => transpose_ix2_apply a2 transposes_S384x384_S384x384_1_0 j c
  rw [e1, e2]

/-- The result array after the run, as one function of the argument arrays. -/
theorem final (c : Dev nD) : (dats m 0 c).arrAt 5 cfg0.N
    = whole (m ((c : Thread nD τ).loc main_arg0)) (m ((c : Thread nD τ).loc main_arg1)) (m ((c : Thread nD τ).loc main_arg2))
        (m ((c : Thread nD τ).loc main_arg3))
        (relBias (m ((c : Thread nD τ).loc main_arg4)) (m ((c : Thread nD τ).loc main_arg5))) := by
  rw [final_blocks, V_bias, V_qkvT, V_projT, V_main_arg0, V_main_arg3]
  exact G_eq_whole _ _ _ _ _

/-- The kernel's run: the result array at the whole-array specification, the arguments unchanged. -/
theorem run : θ_run defs (onTc (τ := τ) (main (F := Ideal))) ⟨m, fun _ => 0, ρ⟩ fun r => ∀ c : Dev nD,
      r.2.mem ((c : Thread nD τ).loc main_v14)
        = whole (m ((c : Thread nD τ).loc main_arg0)) (m ((c : Thread nD τ).loc main_arg1)) (m ((c : Thread nD τ).loc main_arg2))
            (m ((c : Thread nD τ).loc main_arg3))
            (relBias (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KerArray

end
-- ==== Proof.RefProj.lean ====
/-
  The fused projection of the reference, read at one element.

  The reference multiplies the 2048 windows of 64 tokens by the 1152-column weight in one contraction, re-lays the
  1152 columns as (part, head, depth) = (3, 12, 32), moves the part to the front and cuts the three parts out. Read at
  window `b`, head `h`, token `n`, depth `d`, part `s` is the window's projection of token `n` at column
  `s * 384 + h * 32 + d`: the only work is the arithmetic of the row-major positions.
-/
import proofs.«173567_j4638564679872_1_alg».proof.Proof.Gen.ReferenceIdeal.Read
import proofs.«173567_j4638564679872_1_alg».proof.Proof.Spec

noncomputable section

namespace Cert.ReferenceIdeal.RefWindow

open Idealize.ShloMosaic Idealize.ShloMosaic.ValueIdx Cert.ReferenceIdeal Cert.ReferenceIdeal.Read

variable (x0 : (⟨S2048x64x384, .f32⟩ : BufTy).Contents (Elt Ideal)) (x1 : (⟨S1152x384, .f32⟩ : BufTy).Contents (Elt Ideal))

/-- The re-laid and transposed product at (part `s`, window `b`, head `h`, token `n`, depth `d`) is the window's
    projection of token `n` at column `s * 384 + h * 32 + d`. -/
theorem parts_apply (s : Fin 3) (b : Fin 2048) (h : Fin 12) (n : Fin 64) (d : Fin 32) :
    val_main_v2 (F := Ideal) x0 x1 (ix5 s b h n d)
      = Cert.BoxAttn.proj (fun n k => x0 (ix3 b n k)) (fun j k => x1 (ix2 j k)) n (Cert.BoxAttn.col s h d) := by
  rw [val_main_v2_apply, val_main_v1_apply, val_main_v0_apply]
  unfold Cert.BoxAttn.proj
  refine Finset.sum_congr rfl fun k _ => ?_
  have hs := s.isLt; have hb := b.isLt; have hh := h.isLt; have hn := n.isLt; have hd := d.isLt
  have el : lidx_main_v0 (idx_main_v1 (idx_main_v2 (ix5 s b h n d))) k = ix3 b n k := funext fun a => Fin.ext (by
    match a with
    | ⟨0, _⟩ => show ((((b.val * 64 + n.val) * 3 + s.val) * 12 + h.val) * 32 + d.val) / 73728 = b.val; omega
    | ⟨1, _⟩ => show ((((b.val * 64 + n.val) * 3 + s.val) * 12 + h.val) * 32 + d.val) / 1152 % 64 = n.val; omega
    | ⟨2, _⟩ => rfl)
  have er : ridx_main_v0 (idx_main_v1 (idx_main_v2 (ix5 s b h n d))) k = ix2 (Cert.BoxAttn.col s h d) k := funext fun a => Fin.ext (by
    match a with
    | ⟨0, _⟩ => show ((((b.val * 64 + n.val) * 3 + s.val) * 12 + h.val) * 32 + d.val) % 1152 = s.val * 384 + h.val * 32 + d.val; omega
    | ⟨1, _⟩ => rfl)
  rw [el, er]

/-- Part 0, the queries, before scaling. -/
theorem query_apply (b : Fin 2048) (h : Fin 12) (n : Fin 64) (d : Fin 32) :
    val_main_v4 (F := Ideal) x0 x1 (ix4 b h n d)
      = Cert.BoxAttn.proj (fun n k => x0 (ix3 b n k)) (fun j k => x1 (ix2 j k)) n (Cert.BoxAttn.col 0 h d) := by
  have hb := b.isLt; have hh := h.isLt; have hn := n.isLt; have hd := d.isLt
  have e : idx_main_v3 (idx_main_v4 (ix4 b h n d)) = ix5 (0 : Fin 3) b h n d := funext fun a => Fin.ext (by
    match a with
    | ⟨0, _⟩ => rfl
    | ⟨1, _⟩ => show (((b.val * 12 + h.val) * 64 + n.val) * 32 + d.val) / 24576 % 2048 = b.val; omega
    | ⟨2, _⟩ => show (((b.val * 12 + h.val) * 64 + n.val) * 32 + d.val) / 2048 % 12 = h.val; omega
    | ⟨3, _⟩ => show (((b.val * 12 + h.val) * 64 + n.val) * 32 + d.val) / 32 % 64 = n.val; omega
    | ⟨4, _⟩ => show (((b.val * 12 + h.val) * 64 + n.val) * 32 + d.val) % 32 = d.val; omega)
  rw [val_main_v4_apply, val_main_v3_apply, e]
  exact parts_apply x0 x1 _ b h n d

/-- Part 1, the keys. -/
theorem key_apply (b : Fin 2048) (h : Fin 12) (n : Fin 64) (d : Fin 32) :
    val_main_v8 (F := Ideal) x0 x1 (ix4 b h n d)
      = Cert.BoxAttn.proj (fun n k => x0 (ix3 b n k)) (fun j k => x1 (ix2 j k)) n (Cert.BoxAttn.col 1 h d) := by
  have hb := b.isLt; have hh := h.isLt; have hn := n.isLt; have hd := d.isLt
  have e : idx_main_v7 (idx_main_v8 (ix4 b h n d)) = ix5 (1 : Fin 3) b h n d := funext fun a => Fin.ext (by
    match a with
    | ⟨0, _⟩ => rfl
    | ⟨1, _⟩ => show (((b.val * 12 + h.val) * 64 + n.val) * 32 + d.val) / 24576 % 2048 = b.val; omega
    | ⟨2, _⟩ => show (((b.val * 12 + h.val) * 64 + n.val) * 32 + d.val) / 2048 % 12 = h.val; omega
    | ⟨3, _⟩ => show (((b.val * 12 + h.val) * 64 + n.val) * 32 + d.val) / 32 % 64 = n.val; omega
    | ⟨4, _⟩ => show (((b.val * 12 + h.val) * 64 + n.val) * 32 + d.val) % 32 = d.val; omega)
  rw [val_main_v8_apply, val_main_v7_apply, e]
  exact parts_apply x0 x1 _ b h n d

/-- Part 2, the values. -/
theorem value_apply (b : Fin 2048) (h : Fin 12) (n : Fin 64) (d : Fin 32) :
    val_main_v10 (F := Ideal) x0 x1 (ix4 b h n d)
      = Cert.BoxAttn.proj (fun n k => x0 (ix3 b n k)) (fun j k => x1 (ix2 j k)) n (Cert.BoxAttn.col 2 h d) := by
  have hb := b.isLt; have hh := h.isLt; have hn := n.isLt; have hd := d.isLt
  have e : idx_main_v9 (idx_main_v10 (ix4 b h n d)) = ix5 (2 : Fin 3) b h n d := funext fun a => Fin.ext (by
    match a with
    | ⟨0, _⟩ => rfl
    | ⟨1, _⟩ => show (((b.val * 12 + h.val) * 64 + n.val) * 32 + d.val) / 24576 % 2048 = b.val; omega
    | ⟨2, _⟩ => show (((b.val * 12 + h.val) * 64 + n.val) * 32 + d.val) / 2048 % 12 = h.val; omega
    | ⟨3, _⟩ => show (((b.val * 12 + h.val) * 64 + n.val) * 32 + d.val) / 32 % 64 = n.val; omega
    | ⟨4, _⟩ => show (((b.val * 12 + h.val) * 64 + n.val) * 32 + d.val) % 32 = d.val; omega)
  rw [val_main_v10_apply, val_main_v9_apply, e]
  exact parts_apply x0 x1 _ b h n d

/-- The scaled query: the reference multiplies by the scale word broadcast over the whole array. -/
theorem scaled_query_apply (b : Fin 2048) (h : Fin 12) (n : Fin 64) (d : Fin 32) :
    val_main_v6 (F := Ideal) x0 x1 (ix4 b h n d)
      = Cert.BoxAttn.proj (fun n k => x0 (ix3 b n k)) (fun j k => x1 (ix2 j k)) n (Cert.BoxAttn.col 0 h d) * Cert.BoxAttn.scale := by
  rw [val_main_v6_apply, val_main_v5_apply, val_main_cst_apply, query_apply]
  rfl

end Cert.ReferenceIdeal.RefWindow

end
-- ==== Proof.RefLogit.lean ====
/-
  The reference's logits, read at one element.

  The batched contraction over the depth pairs the scaled query of token `n` with the key of token `m` inside one
  window and one head; the relative-position bias, an array over (head, token, token), is broadcast over the windows
  and added. The bias itself is left as the reference's own array.
-/
import proofs.«173567_j4638564679872_1_alg».proof.Proof.RefProj

noncomputable section

namespace Cert.ReferenceIdeal.RefWindow

open Idealize.ShloMosaic Idealize.ShloMosaic.ValueIdx Cert.ReferenceIdeal Cert.ReferenceIdeal.Read

variable (x0 : (⟨S2048x64x384, .f32⟩ : BufTy).Contents (Elt Ideal)) (x1 : (⟨S1152x384, .f32⟩ : BufTy).Contents (Elt Ideal))
variable (x4 : (⟨S121x12, .f32⟩ : BufTy).Contents (Elt Ideal)) (x5 : (⟨S64x64, .i32⟩ : BufTy).Contents (Elt Ideal))

/-- The window's rows, the weight's rows and the bias as the curried functions the specification is written over. -/
abbrev rows (b : Fin 2048) : Fin 64 → Fin 384 → EReal := fun n k => x0 (ix3 b n k)
abbrev wgt : Fin 1152 → Fin 384 → EReal := fun j k => x1 (ix2 j k)
abbrev relBias : Fin 12 → Fin 64 → Fin 64 → EReal := fun h n m => val_main_v21 (F := Ideal) x4 x5 (ix3 h n m)

/-- The logit of the pair (`n`, `m`) in head `h` of window `b`. -/
theorem logit_apply (b : Fin 2048) (h : Fin 12) (n m : Fin 64) :
    val_main_v24 (F := Ideal) x0 x1 x4 x5 (ix4 b h n m)
      = Cert.BoxAttn.logit (rows x0 b) (wgt x1) (relBias x4 x5) h n m := by
  rw [val_main_v24_apply, val_main_v11_apply, val_main_v23_apply, val_main_v22_apply]
  unfold Cert.BoxAttn.logit
  have el : ∀ k : Fin 32, lidx_main_v11 (ix4 b h n m) k = ix4 b h n k := fun k => funext fun a => by
    match a with | ⟨0, _⟩ => rfl | ⟨1, _⟩ => rfl | ⟨2, _⟩ => rfl | ⟨3, _⟩ => rfl
  have er : ∀ k : Fin 32, ridx_main_v11 (ix4 b h n m) k = ix4 b h m k := fun k => funext fun a => by
    match a with | ⟨0, _⟩ => rfl | ⟨1, _⟩ => rfl | ⟨2, _⟩ => rfl | ⟨3, _⟩ => rfl
  have eb : idx_main_v22 (idx_main_v23 (ix4 b h n m)) = ix3 h n m := funext fun a => by
    match a with | ⟨0, _⟩ => rfl | ⟨1, _⟩ => rfl | ⟨2, _⟩ => rfl
  rw [eb]
  refine congrArg (· + _) (Finset.sum_congr rfl fun k _ => ?_)
  rw [el, er, scaled_query_apply, key_apply]

end Cert.ReferenceIdeal.RefWindow

end
-- ==== Proof.RefSoftmax.lean ====
/-
  The reference's softmax, read at one element.

  Each row of logits (window `b`, head `h`, token `n` fixed, the second token `m` running) is reduced by a maximum
  from −∞, the result is taken once more against −∞ and subtracted from the row; the exponentials are summed from the
  zero word and each is divided by the sum. Every step reads through at one index; the only law used is `0 + x = x`.
-/
import proofs.«173567_j4638564679872_1_alg».proof.Proof.RefLogit

noncomputable section

namespace Cert.ReferenceIdeal.RefWindow

open Idealize.ShloMosaic Idealize.ShloMosaic.ValueIdx Cert.ReferenceIdeal Cert.ReferenceIdeal.Read

open Cert.ReferenceIdeal.Gen

variable (x0 : (⟨S2048x64x384, .f32⟩ : BufTy).Contents (Elt Ideal)) (x1 : (⟨S1152x384, .f32⟩ : BufTy).Contents (Elt Ideal))
variable (x4 : (⟨S121x12, .f32⟩ : BufTy).Contents (Elt Ideal)) (x5 : (⟨S64x64, .i32⟩ : BufTy).Contents (Elt Ideal))

/-- The row index (`b`, `h`, `n`) with the column `k` put back is (`b`, `h`, `n`, `k`). -/
theorem lift_row (hR : S2048x12x64x64.Reduces [3] S2048x12x64) (b : Fin 2048) (h : Fin 12) (n : Fin 64)
    (k : Fin (S2048x12x64x64.size 3)) : hR.lift (ix3 b h n) k = ix4 b h n (⟨k.val, k.isLt⟩ : Fin 64) := by
  funext c; apply Fin.ext
  fin_cases c <;> rfl

/-- The row's maximum as the reference takes it. -/
theorem rowmax_apply (b : Fin 2048) (h : Fin 12) (n : Fin 64) :
    val_main_v27 (F := Ideal) x0 x1 x4 x5 (ix3 b h n)
      = Cert.BoxAttn.rowMax (fun m => Cert.BoxAttn.logit (rows x0 b) (wgt x1) (relBias x4 x5) h n m) := by
  have hR : S2048x12x64x64.Reduces [3] S2048x12x64 := by decide
  rw [val_main_v27_apply, val_main_v26_apply, val_main_cst_2_apply]
  unfold val_main_v25
  rw [Host.reduce_eq_fold_single FloatOps.maximumf _ _ reducesTo_S2048x12x64x64_S2048x12x64_d3 hR h_S_]
  have hf : (val_main_v24 (F := Ideal) x0 x1 x4 x5 ∘ hR.lift (ix3 b h n))
      = fun m : Fin 64 => Cert.BoxAttn.logit (rows x0 b) (wgt x1) (relBias x4 x5) h n m :=
    funext fun k => (congrArg (val_main_v24 (F := Ideal) x0 x1 x4 x5) (lift_row hR b h n k)).trans (logit_apply x0 x1 x4 x5 b h n _)
  unfold Cert.BoxAttn.rowMax Cert.BoxAttn.negInf
  exact congrArg (fun f => max (Ideal.ofBits .f32 0xFF800000#32)
    (Finset.fold max (Ideal.ofBits .f32 0xFF800000#32) f (Finset.univ : Finset (Fin 64)))) hf

/-- The shifted exponential of a logit. -/
theorem expo_apply (b : Fin 2048) (h : Fin 12) (n m : Fin 64) :
    val_main_v31 (F := Ideal) x0 x1 x4 x5 (ix4 b h n m) = Cert.BoxAttn.expo (rows x0 b) (wgt x1) (relBias x4 x5) h n m := by
  have e : idx_main_v28 (idx_main_v29 (ix4 b h n m)) = ix3 b h n := funext fun a => by
    match a with | ⟨0, _⟩ => rfl | ⟨1, _⟩ => rfl | ⟨2, _⟩ => rfl
  rw [val_main_v31_apply, val_main_v30_apply, val_main_v29_apply, val_main_v28_apply, e, rowmax_apply, logit_apply]
  rfl

/-- The row's sum of exponentials, accumulated from the zero word. -/
theorem expsum_apply (b : Fin 2048) (h : Fin 12) (n : Fin 64) :
    val_main_v32 (F := Ideal) x0 x1 x4 x5 (ix3 b h n) = ∑ m : Fin 64, Cert.BoxAttn.expo (rows x0 b) (wgt x1) (relBias x4 x5) h n m := by
  rw [val_main_v32_apply, val_main_cst_3_apply]
  show Ideal.ofBits .f32 0x00000000#32 + _ = _
  rw [Ideal.ofBits_zero_f32, zero_add]
  refine Finset.sum_congr rfl fun k _ => ?_
  have e : idx_main_v32 (ix3 b h n) k = ix4 b h n k := funext fun a => by
    match a with | ⟨0, _⟩ => rfl | ⟨1, _⟩ => rfl | ⟨2, _⟩ => rfl | ⟨3, _⟩ => rfl
  rw [e, expo_apply]

/-- The softmax weight. -/
theorem weight_apply (b : Fin 2048) (h : Fin 12) (n m : Fin 64) :
    val_main_v35 (F := Ideal) x0 x1 x4 x5 (ix4 b h n m) = Cert.BoxAttn.weight (rows x0 b) (wgt x1) (relBias x4 x5) h n m := by
  have e : idx_main_v33 (idx_main_v34 (ix4 b h n m)) = ix3 b h n := funext fun a => by
    match a with | ⟨0, _⟩ => rfl | ⟨1, _⟩ => rfl | ⟨2, _⟩ => rfl
  rw [val_main_v35_apply, val_main_v34_apply, val_main_v33_apply, e, expsum_apply, expo_apply]
  rfl

end Cert.ReferenceIdeal.RefWindow

end
-- ==== Proof.RefCtx.lean ====
/-
  The reference's weighted average of the values, read at one element.

  The batched contraction over the second token pairs the value of token `m` at depth `d` with the weight of the
  pair (`n`, `m`); the result, an array over (window, head, depth, token), is transposed to (window, token, head,
  depth) and its last two axes are laid side by side as 384 channels: channel `j` is head `j / 32`, depth `j % 32`.
  The contraction writes value times weight; the specification writes weight times value.
-/
import proofs.«173567_j4638564679872_1_alg».proof.Proof.RefSoftmax

noncomputable section

namespace Cert.ReferenceIdeal.RefWindow

open Idealize.ShloMosaic Idealize.ShloMosaic.ValueIdx Cert.ReferenceIdeal Cert.ReferenceIdeal.Read

variable (x0 : (⟨S2048x64x384, .f32⟩ : BufTy).Contents (Elt Ideal)) (x1 : (⟨S1152x384, .f32⟩ : BufTy).Contents (Elt Ideal))
variable (x4 : (⟨S121x12, .f32⟩ : BufTy).Contents (Elt Ideal)) (x5 : (⟨S64x64, .i32⟩ : BufTy).Contents (Elt Ideal))

/-- Channel `j` of token `n` of window `b` after the heads are laid side by side. -/
theorem ctx_apply (b : Fin 2048) (n : Fin 64) (j : Fin 384) :
    val_main_v38 (F := Ideal) x0 x1 x4 x5 (ix3 b n j)
      = Cert.BoxAttn.ctx (rows x0 b) (wgt x1) (relBias x4 x5) (Cert.BoxAttn.headOf j) n (Cert.BoxAttn.depthOf j) := by
  have hb := b.isLt; have hn := n.isLt; have hj := j.isLt
  have e : idx_main_v37 (idx_main_v38 (ix3 b n j)) = ix4 b (Cert.BoxAttn.headOf j) (Cert.BoxAttn.depthOf j) n :=
    funext fun a => Fin.ext (by
      match a with
      | ⟨0, _⟩ => show ((b.val * 64 + n.val) * 384 + j.val) / 24576 = b.val; omega
      | ⟨1, _⟩ => show ((b.val * 64 + n.val) * 384 + j.val) / 32 % 12 = j.val / 32; omega
      | ⟨2, _⟩ => show ((b.val * 64 + n.val) * 384 + j.val) % 32 = j.val % 32; omega
      | ⟨3, _⟩ => show ((b.val * 64 + n.val) * 384 + j.val) / 384 % 64 = n.val; omega)
  rw [val_main_v38_apply, val_main_v37_apply, e, val_main_v36_apply]
  unfold Cert.BoxAttn.ctx
  refine Finset.sum_congr rfl fun m _ => ?_
  have el : lidx_main_v36 (ix4 b (Cert.BoxAttn.headOf j) (Cert.BoxAttn.depthOf j) n) m
      = ix4 b (Cert.BoxAttn.headOf j) m (Cert.BoxAttn.depthOf j) := funext fun a => by
    match a with | ⟨0, _⟩ => rfl | ⟨1, _⟩ => rfl | ⟨2, _⟩ => rfl | ⟨3, _⟩ => rfl
  have er : ridx_main_v36 (ix4 b (Cert.BoxAttn.headOf j) (Cert.BoxAttn.depthOf j) n) m
      = ix4 b (Cert.BoxAttn.headOf j) n m := funext fun a => by
    match a with | ⟨0, _⟩ => rfl | ⟨1, _⟩ => rfl | ⟨2, _⟩ => rfl | ⟨3, _⟩ => rfl
  rw [el, er, value_apply, weight_apply, mul_comm]

end Cert.ReferenceIdeal.RefWindow

end
-- ==== Proof.RefOut.lean ====
/-
  The reference's result, read at one element: the window function of the specification.

  The heads' results, 384 channels per token, are contracted with the output weight over the channel, and the output
  bias, broadcast over windows and tokens, is added. With the earlier stages this reads the whole reference program at
  window `b`, token `n`, channel `c` as the specification's `out` of the window's rows.
-/
import proofs.«173567_j4638564679872_1_alg».proof.Proof.RefCtx

noncomputable section

namespace Cert.ReferenceIdeal.RefWindow

open Idealize.ShloMosaic Idealize.ShloMosaic.ValueIdx Cert.ReferenceIdeal Cert.ReferenceIdeal.Read

variable (x0 : (⟨S2048x64x384, .f32⟩ : BufTy).Contents (Elt Ideal)) (x1 : (⟨S1152x384, .f32⟩ : BufTy).Contents (Elt Ideal))
variable (x2 : (⟨S384x384, .f32⟩ : BufTy).Contents (Elt Ideal)) (x3 : (⟨S384, .f32⟩ : BufTy).Contents (Elt Ideal))
variable (x4 : (⟨S121x12, .f32⟩ : BufTy).Contents (Elt Ideal)) (x5 : (⟨S64x64, .i32⟩ : BufTy).Contents (Elt Ideal))

/-- The reference's result at window `b`, token `n`, channel `c` is the specification's window function of window
    `b`'s rows, with the reference's own relative-position bias array as the bias. -/
theorem ref_out (b : Fin 2048) (n : Fin 64) (c : Fin 384) :
    val_main_v42 (F := Ideal) x0 x1 x2 x3 x4 x5 (ix3 b n c)
      = Cert.BoxAttn.out (fun n k => x0 (ix3 b n k)) (fun j k => x1 (ix2 j k)) (fun c j => x2 (ix2 c j)) (fun c => x3 (ix1 c))
          (fun h n m => val_main_v21 (F := Ideal) x4 x5 (ix3 h n m)) n c := by
  have eb : idx_main_v40 (idx_main_v41 (ix3 b n c)) = ix1 c := funext fun a => by
    match a with | ⟨0, _⟩ => rfl
  rw [val_main_v42_apply, val_main_v41_apply, val_main_v40_apply, eb, val_main_v39_apply]
  unfold Cert.BoxAttn.out
  refine congrArg (· + _) (Finset.sum_congr rfl fun j _ => ?_)
  have el : lidx_main_v39 (ix3 b n c) j = ix3 b n j := funext fun a => by
    match a with | ⟨0, _⟩ => rfl | ⟨1, _⟩ => rfl | ⟨2, _⟩ => rfl
  have er : ridx_main_v39 (ix3 b n c) j = ix2 c j := funext fun a => by
    match a with | ⟨0, _⟩ => rfl | ⟨1, _⟩ => rfl
  rw [el, er, ctx_apply]

end Cert.ReferenceIdeal.RefWindow

end
-- ==== Proof.RefWhole.lean ====
/-
  The reference's result array, as the whole-array specification of its arguments.
-/
import proofs.«173567_j4638564679872_1_alg».proof.Proof.RefOut
import proofs.«173567_j4638564679872_1_alg».proof.Proof.Whole

noncomputable section

namespace Cert.ReferenceIdeal.RefWindow

open Idealize.ShloMosaic Idealize.ShloMosaic.ValueIdx Cert.ReferenceIdeal Cert.ReferenceIdeal.Read

/-- Index by index the reference's last stage is the attention window of the index's window of tokens: the whole array is
    the specification's, with the relative-position bias the reference's own gathered stage. -/
theorem ref_whole (x0 : (⟨S2048x64x384, .f32⟩ : BufTy).Contents (Elt Ideal)) (x1 : (⟨S1152x384, .f32⟩ : BufTy).Contents (Elt Ideal))
    (x2 : (⟨S384x384, .f32⟩ : BufTy).Contents (Elt Ideal)) (x3 : (⟨S384, .f32⟩ : BufTy).Contents (Elt Ideal))
    (x4 : (⟨S121x12, .f32⟩ : BufTy).Contents (Elt Ideal)) (x5 : (⟨S64x64, .i32⟩ : BufTy).Contents (Elt Ideal)) :
    val_main_v42 (F := Ideal) x0 x1 x2 x3 x4 x5 = Cert.BoxAttn.whole x0 x1 x2 x3 (val_main_v21 (F := Ideal) x4 x5) := by
  funext i
  obtain ⟨B, n, c, rfl⟩ : ∃ (B : Fin 2048) (n : Fin 64) (c : Fin 384), i = ix3 B n c := ⟨i 0, i 1, i 2, eq_ix3 i⟩
  exact (ref_out x0 x1 x2 x3 x4 x5 B n c).trans (Cert.BoxAttn.whole_ix3 x0 x1 x2 x3 (val_main_v21 (F := Ideal) x4 x5) B n c).symm

end Cert.ReferenceIdeal.RefWindow

end
-- ==== Proof.lean ====
/-
  Windowed attention with a gathered relative-position bias: a fused kernel (one grid point per 8 windows of 64 tokens:
  fused query/key/value projection, per-head scores, bias, row softmax, weighted average of the values, output
  projection) against the plain formulation over all 2048 windows at once.

  On the extended reals both programs compute ONE function, `Cert.BoxAttn.whole` (Proof/Spec.lean, Proof/Whole.lean): window
  `B`, token `n`, channel `c` of the result is the attention window of window `B`'s tokens. The kernel's side
  (Proof/Ker*.lean) reads the stored payload of a block at an index, window by window, and tiles the result array with the
  256 blocks; the reference's side (Proof/Ref*.lean) reads its host operations one at a time. The two differ only in
  layout (which axis carries the heads, weights transposed beforehand or contracted in place) and in the order of the two
  factors of one product; the relative-position bias is computed by the same host operations in both programs and is never
  opened. No law that needs finiteness is used, so the precondition is not.
  The frames of the two kernel programs are the generated ones; the reference's frame is its generated run with the
  result dropped; the idealization rewrote nothing, so `preserves` is trivial.
-/
import proofs.«173567_j4638564679872_1_alg».proof.Defs
import proofs.«173567_j4638564679872_1_alg».proof.Proof.Gen.Kernel
import proofs.«173567_j4638564679872_1_alg».proof.Proof.Gen.Kernel.Skeleton
import proofs.«173567_j4638564679872_1_alg».proof.Proof.Gen.Kernel.Launch
import proofs.«173567_j4638564679872_1_alg».proof.Proof.Gen.Kernel.Points
import proofs.«173567_j4638564679872_1_alg».proof.Proof.Gen.Kernel.Frame
import proofs.«173567_j4638564679872_1_alg».proof.Proof.Gen.KernelIdeal
import proofs.«173567_j4638564679872_1_alg».proof.Proof.Gen.KernelIdeal.Skeleton
import proofs.«173567_j4638564679872_1_alg».proof.Proof.Gen.KernelIdeal.Launch
import proofs.«173567_j4638564679872_1_alg».proof.Proof.Gen.KernelIdeal.Points
import proofs.«173567_j4638564679872_1_alg».proof.Proof.Gen.KernelIdeal.Frame
import proofs.«173567_j4638564679872_1_alg».proof.Proof.Gen.ReferenceIdeal
import proofs.«173567_j4638564679872_1_alg».proof.Proof.Gen.KernelIdeal.Value
import proofs.«173567_j4638564679872_1_alg».proof.Proof.Gen.ReferenceIdeal.Run
import proofs.«173567_j4638564679872_1_alg».proof.Proof.Gen.ReferenceIdeal.Read
import proofs.«173567_j4638564679872_1_alg».proof.Proof.KerRun
import proofs.«173567_j4638564679872_1_alg».proof.Proof.RefWhole
import proofs.«173567_j4638564679872_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two runs end with equal result arrays: each is the whole-array specification of its arguments, the arguments
    agree, and the two programs' gathered biases are one term. -/
theorem algebraic : Cert.algebraic_KernelIdeal_ReferenceIdeal := by
  intro m ρ m' ρ' _ hagree
  refine ⟨_, Cert.KernelIdeal.KerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefWindow.ref_whole,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
